-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S64x1024 : Shape := ⟨2, ![64, 1024]⟩
abbrev S8x1024x128 : Shape := ⟨3, ![8, 1024, 128]⟩
abbrev S8x1024x1024 : Shape := ⟨3, ![8, 1024, 1024]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S_ : Shape := ⟨0, ![]⟩

class Facts : Prop where
  bcast_S_S8x1024x128 : S_.BroadcastsInDim S8x1024x128 (![] : Fin 0 → Fin S8x1024x128.rank)
  reducesTo_S8x1024x128_S_d0_1_2 : S8x1024x128.ReducesTo [0, 1, 2] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_v28 : IVec S_ 1) (main_v33 : IVec S64 1) : IVec S_ 1 :=
  let main_c_12 : IVec S_ 1 := constantI S_ 1 1#1
  let main_v34 : IVec S_ 1 := (fun x v => Host.reduce IntOp.andi x v reducesTo_S64_S_d0 h_S_) main_v33 main_c_12
  let main_v35 : IVec S_ 1 := andi main_v28 main_v34
  main_v35

def fn_part1 {F : FTy → Type} [FloatOps F] (main_arg0 : IVec S64 32) (main_arg6 : FVec F S4x256x256 .f32) (main_arg7 : FVec F S4x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S4x256x256 .f32 := Host.absf main_arg6
  let main_cst_6 : FVec F S_ .f32 := constant S_ .f32 0x7F800000#32
  let main_v20 : FVec F S4x256x256 .f32 := broadcastInDim S4x256x256 ![] bcast_S_S4x256x256 main_cst_6
  let main_v21 : IVec S4x256x256 1 := cmpf .olt main_v19 main_v20
  let main_c_7 : IVec S_ 1 := constantI S_ 1 1#1
  let main_v22 : IVec S_ 1 := (fun x v => Host.reduce IntOp.andi x v reducesTo_S4x256x256_S_d0_1_2 h_S_) main_v21 main_c_7
  let main_v23 : IVec S_ 1 := andi main_v18 main_v22
  let main_v24 : FVec F S4x256 .f32 := Host.absf main_arg7
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_c_10 : IVec S_ 32 := constantI S_ 32 0#32
  let main_v29 : IVec S64 32 := broadcastInDim S64 ![] bcast_S_S64 main_c_10
  let main_v30 : IVec S64 1 := cmpi .sge main_arg0 main_v29
  let main_c_11 : IVec S_ 32 := constantI S_ 32 8#32
  let main_v31 : IVec S64 32 := broadcastInDim S64 ![] bcast_S_S64 main_c_11
  let main_v32 : IVec S64 1 := cmpi .slt main_arg0 main_v31
  let main_v33 : IVec S64 1 := andi main_v30 main_v32
  fn_part2 (F := F) main_v28 main_v33

def fn {F : FTy → Type} [FloatOps F] (main_arg0 : IVec S64 32) (main_arg1 : IVec S64x1024 1) (main_arg2 : FVec F S8x1024x128 .f32) (main_arg3 : FVec F S8x1024x1024 .f32) (main_arg4 : FVec F S128x256 .f32) (main_arg5 : FVec F S256 .f32) (main_arg6 : FVec F S4x256x256 .f32) (main_arg7 : FVec F S4x256 .f32) : IVec S_ 1 :=
  let main_v0 : FVec F S8x1024x128 .f32 := Host.absf main_arg2
  let main_cst : FVec F S_ .f32 := constant S_ .f32 0x7F800000#32
  let main_v1 : FVec F S8x1024x128 .f32 := broadcastInDim S8x1024x128 ![] bcast_S_S8x1024x128 main_cst
  let main_v2 : IVec S8x1024x128 1 := cmpf .olt main_v0 main_v1
  let main_c : IVec S_ 1 := constantI S_ 1 1#1
  let main_v3 : IVec S_ 1 := (fun x v => Host.reduce IntOp.andi x v reducesTo_S8x1024x128_S_d0_1_2 h_S_) main_v2 main_c
  let main_v4 : FVec F S8x1024x1024 .f32 := Host.absf main_arg3
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg6 main_arg7 main_v13 main_v16
-- ==== Kernel.lean ====
abbrev S64 : Shape := ⟨1, ![64]⟩
abbrev S64x1024 : Shape := ⟨2, ![64, 1024]⟩
abbrev S8x1024x128 : Shape := ⟨3, ![8, 1024, 128]⟩
abbrev S8x1024x1024 : Shape := ⟨3, ![8, 1024, 1024]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S_ : Shape := ⟨0, ![]⟩
abbrev S64x1x1024 : Shape := ⟨3, ![64, 1, 1024]⟩
abbrev S1x256 : Shape := ⟨2, ![1, 256]⟩
abbrev S64x1x256 : Shape := ⟨3, ![64, 1, 256]⟩
abbrev S1x1024x128 : Shape := ⟨3, ![1, 1024, 128]⟩
abbrev S1 : Shape := ⟨1, ![1]⟩
abbrev S1x1024x1024 : Shape := ⟨3, ![1, 1024, 1024]⟩
abbrev S1x1x1024 : Shape := ⟨3, ![1, 1, 1024]⟩
abbrev S1x1x256 : Shape := ⟨3, ![1, 1, 256]⟩
abbrev S1024x128 : Shape := ⟨2, ![1024, 128]⟩
abbrev S1024x256 : Shape := ⟨2, ![1024, 256]⟩
abbrev S1024x1024 : Shape := ⟨2, ![1024, 1024]⟩
abbrev S1x256x256 : Shape := ⟨3, ![1, 256, 256]⟩
abbrev S256x256 : Shape := ⟨2, ![256, 256]⟩
abbrev S1024 : Shape := ⟨1, ![1024]⟩
abbrev S1024x1 : Shape := ⟨2, ![1024, 1]⟩
abbrev S1x1024 : Shape := ⟨2, ![1, 1024]⟩
abbrev S1x1 : Shape := ⟨2, ![1, 1]⟩
abbrev S64x256 : Shape := ⟨2, ![64, 256]⟩

abbrev nBuf : Space → Nat
  | .hbm => 24
  | .vmem => 12
  | .smem => 1
  | _ => 0

abbrev bufTy : (tb : Table) → Fin (tcTables nBuf tb) → BufTy
  | .hbm, ⟨0, _⟩ => ⟨S64, .i32⟩
  | .hbm, ⟨1, _⟩ => ⟨S64x1024, .i1⟩
  | .hbm, ⟨2, _⟩ => ⟨S8x1024x128, .f32⟩
  | .hbm, ⟨3, _⟩ => ⟨S8x1024x1024, .f32⟩
  | .hbm, ⟨4, _⟩ => ⟨S128x256, .f32⟩
  | .hbm, ⟨5, _⟩ => ⟨S256, .f32⟩
  | .hbm, ⟨6, _⟩ => ⟨S4x256x256, .f32⟩
  | .hbm, ⟨7, _⟩ => ⟨S4x256, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S8x1024x128, .bf16⟩
  | .hbm, ⟨16, _⟩ => ⟨S8x1024x1024, .bf16⟩
  | .hbm, ⟨17, _⟩ => ⟨S64x1024, .f32⟩
  | .hbm, ⟨18, _⟩ => ⟨S64x1x1024, .f32⟩
  | .hbm, ⟨19, _⟩ => ⟨S128x256, .bf16⟩
  | .hbm, ⟨20, _⟩ => ⟨S4x256x256, .bf16⟩
  | .hbm, ⟨21, _⟩ => ⟨S1x256, .f32⟩
  | .hbm, ⟨22, _⟩ => ⟨S64x1x256, .f32⟩
  | .hbm, ⟨23, _⟩ => ⟨S64x256, .f32⟩
  | .local _ .vmem, ⟨0, _⟩ => ⟨S1x1024x128, .bf16⟩
  | .local _ .vmem, ⟨1, _⟩ => ⟨S1x1024x128, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S128x256, .bf16⟩
  | .local _ .vmem, ⟨7, _⟩ => ⟨S1x256, .f32⟩
  | .local _ .vmem, ⟨8, _⟩ => ⟨S4x256x256, .bf16⟩
  | .local _ .vmem, ⟨9, _⟩ => ⟨S4x256, .f32⟩
  | .local _ .vmem, ⟨10, _⟩ => ⟨S1x1x256, .f32⟩
  | .local _ .vmem, ⟨11, _⟩ => ⟨S1x1x256, .f32⟩
  | .local _ .smem, ⟨0, _⟩ => ⟨S64, .i32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S64 : S_.BroadcastsInDim S64 (![] : Fin 0 → Fin S64.rank)
  bitsLt_bf16_f32 : FTy.bits .bf16 < FTy.bits .f32
  shapeCasts_S64x1024_S64x1x1024 : S64x1024.ShapeCasts S64x1x1024
  shapeCasts_S256_S1x256 : S256.ShapeCasts S1x256
  numel1_S1 : S1.numel = 1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x256_S1x256_0_0 : ∀ a, (![0, 0] : Fin 2 → Nat) a + S1x256.size a ≤ S4x256.size a
  shapeCasts_S1x256_S256 : S1x256.ShapeCasts S256
  inb_S4x256x256_S1x256x256_1_0_0 : ∀ a, (![1, 0, 0] : Fin 3 → Nat) a + S1x256x256.size a ≤ S4x256x256.size a
  inb_S4x256_S1x256_1_0 : ∀ a, (![1, 0] : Fin 2 → Nat) a + S1x256.size a ≤ S4x256.size a
  inb_S4x256x256_S1x256x256_2_0_0 : ∀ a, (![2, 0, 0] : Fin 3 → Nat) a + S1x256x256.size a ≤ S4x256x256.size a
  inb_S4x256_S1x256_2_0 : ∀ a, (![2, 0] : Fin 2 → Nat) a + S1x256.size a ≤ S4x256.size a
  inb_S4x256x256_S1x256x256_3_0_0 : ∀ a, (![3, 0, 0] : Fin 3 → Nat) a + S1x256x256.size a ≤ S4x256x256.size a
  inb_S4x256_S1x256_3_0 : ∀ a, (![3, 0] : Fin 2 → Nat) a + S1x256.size a ≤ S4x256.size a
  reduces_S1024x256_S1024 : S1024x256.Reduces [1] S1024
  shapeCasts_S1024_S1024x1 : S1024.ShapeCasts S1024x1
  broadcasts_S1024x1_S1024x256 : S1024x1.Broadcasts S1024x256
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  reduces_S1x1024_S1 : S1x1024.Reduces [1] S1
  shapeCasts_S1_S1x1 : S1.ShapeCasts S1x1
  broadcasts_S1x1_S1x256 : S1x1.Broadcasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  shapeCasts_S64x1x256_S64x256 : S64x1x256.ShapeCasts S64x256
  dot_S1024x128_S128x256_S1024x256_1_0_0_1_n_n_wf : DotDims.WF S1024x128 S128x256 S1024x256 [1] [0] [0] [1] [] []
  dot_S1024x256_S256x256_S1024x256_1_0_0_1_n_n_wf : DotDims.WF S1024x256 S256x256 S1024x256 [1] [0] [0] [1] [] []
  dot_S1024x1024_S1024x256_S1024x256_1_0_0_1_n_n_wf : DotDims.WF S1024x1024 S1024x256 S1024x256 [1] [0] [0] [1] [] []
  dot_S1x1024_S1024x256_S1x256_1_0_0_1_n_n_wf : DotDims.WF S1x1024 S1024x256 S1x256 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S64x1x1024.size a
  hwx0_2 : ∀ i : grid0.Coords, EltTy.bits .f32 = 32 ∨ (Rect.block (s := S64x1x1024) S1x1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256x256.size a ≤ S4x256x256.size a
  hwx0_5 : ∀ i : grid0.Coords, EltTy.bits .bf16 = 32 ∨ (Rect.block (s := S4x256x256) S4x256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x256.size a ≤ S4x256.size a
  hwx0_6 : ∀ i : grid0.Coords, EltTy.bits .f32 = 32 ∨ (Rect.block (s := S4x256) S4x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S64x1x256.size a
  hwx0_7 : ∀ i : grid0.Coords, EltTy.bits .f32 = 32 ∨ (Rect.block (s := S64x1x256) S1x1x256.size (cc0_transform_7 i) (hinb0_7 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1x1024_S1024x256_S1x256_1_0_0_1_n_n : DotDims S1x1024 S1024x256 S1x256 where
  lhsContracting := [1]
  rhsContracting := [0]
  lhsNonContracting := [0]
  rhsNonContracting := [1]
  lhsBatch := []
  rhsBatch := []
  wf := dot_S1x1024_S1024x256_S1x256_1_0_0_1_n_n_wf

abbrev spec0_0 : Pipeline.WinSpec sig grid0.rank :=
  Pipeline.WinSpec.ofSpec (Memref.whole main_v1) S1x1024x128.size reads0_0 false false 2 stage0_0 sem0_0 nbuf0_0 hstage0_0

abbrev spec0_1 : Pipeline.WinSpec sig grid0.rank :=
  Pipeline.WinSpec.ofSpec (Memref.whole main_v2) S1x1024x1024.size reads0_1 false false 2 stage0_1 sem0_1 nbuf0_1 hstage0_1

abbrev spec0_2 : Pipeline.WinSpec sig grid0.rank :=
  Pipeline.WinSpec.ofSpec (Memref.whole main_v4) S1x1x1024.size reads0_2 false false 2 stage0_2 sem0_2 nbuf0_2 hstage0_2

abbrev spec0_3 : Pipeline.WinSpec sig grid0.rank :=
  Pipeline.WinSpec.ofSpec (Memref.whole main_v5) S128x256.size reads0_3 false true 1 stage0_3 sem0_3 nbuf0_3 hstage0_3

abbrev spec0_4 : Pipeline.WinSpec sig grid0.rank :=
  Pipeline.WinSpec.ofSpec (Memref.whole main_v7) S1x256.size reads0_4 false true 1 stage0_4 sem0_4 nbuf0_4 hstage0_4

abbrev spec0_5 : Pipeline.WinSpec sig grid0.rank :=
  Pipeline.WinSpec.ofSpec (Memref.whole main_v6) S4x256x256.size reads0_5 false true 1 stage0_5 sem0_5 nbuf0_5 hstage0_5

abbrev spec0_6 : Pipeline.WinSpec sig grid0.rank :=
  Pipeline.WinSpec.ofSpec (Memref.whole main_arg7) S4x256.size reads0_6 false true 1 stage0_6 sem0_6 nbuf0_6 hstage0_6

abbrev spec0_7 : Pipeline.WinSpec sig grid0.rank :=
  Pipeline.WinSpec.ofSpec (Memref.whole main_v8) S1x1x256.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 k0_off1_inb numel1_S1 pf | 1 => cc0_transform_1 k0_off1_inb numel1_S1 pf | 2 => cc0_transform_2 | 3 => cc0_transform_3 | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | 3 => hreads0_3 | 4 => hreads0_4 | 5 => hreads0_5 | 6 => hreads0_6 | 7 => hreads0_7 | ⟨_ + 8, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1024x128.size a ≤ S8x1024x128.size a), EltTy.bits .bf16 = 32 ∨ (Rect.block (s := S8x1024x128) S1x1024x128.size (cc0_transform_0 k0_off1_inb numel1_S1 pf i) h).WholeWords (EltTy.packing .bf16)) ∧
  (∀ i : grid0.Coords, ∃ h : (∀ a, (cc0_transform_1 k0_off1_inb numel1_S1 pf i a + 1) * S1x1024x1024.size a ≤ S8x1024x1024.size a), EltTy.bits .bf16 = 32 ∨ (Rect.block (s := S8x1024x1024) S1x1024x1024.size (cc0_transform_1 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | 3 => hinb0_3 | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | 3 => hwx0_3 | 4 => hwx0_4 | 5 => hwx0_5 | 6 => hwx0_6 | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S64 : Shape := ⟨1, ![64]⟩
abbrev S64x1024 : Shape := ⟨2, ![64, 1024]⟩
abbrev S8x1024x128 : Shape := ⟨3, ![8, 1024, 128]⟩
abbrev S8x1024x1024 : Shape := ⟨3, ![8, 1024, 1024]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S_ : Shape := ⟨0, ![]⟩
abbrev S64x1 : Shape := ⟨2, ![64, 1]⟩
abbrev S64x1024x128 : Shape := ⟨3, ![64, 1024, 128]⟩
abbrev S64x1024x1024 : Shape := ⟨3, ![64, 1024, 1024]⟩
abbrev S64x1024x256 : Shape := ⟨3, ![64, 1024, 256]⟩
abbrev S1x1x256 : Shape := ⟨3, ![1, 1, 256]⟩
abbrev S1x256x256 : Shape := ⟨3, ![1, 256, 256]⟩
abbrev S256x256 : Shape := ⟨2, ![256, 256]⟩
abbrev S1x256 : Shape := ⟨2, ![1, 256]⟩
abbrev S64x1024x1 : Shape := ⟨3, ![64, 1024, 1]⟩
abbrev S64x256 : Shape := ⟨2, ![64, 256]⟩

abbrev nBuf : Space → Nat
  | .hbm => 106
  | .vmem => 0
  | .smem => 0
  | _ => 0

abbrev bufTy : (tb : Table) → Fin (tcTables nBuf tb) → BufTy
  | .hbm, ⟨0, _⟩ => ⟨S64, .i32⟩
  | .hbm, ⟨1, _⟩ => ⟨S64x1024, .i1⟩
  | .hbm, ⟨2, _⟩ => ⟨S8x1024x128, .f32⟩
  | .hbm, ⟨3, _⟩ => ⟨S8x1024x1024, .f32⟩
  | .hbm, ⟨4, _⟩ => ⟨S128x256, .f32⟩
  | .hbm, ⟨5, _⟩ => ⟨S256, .f32⟩
  | .hbm, ⟨6, _⟩ => ⟨S4x256x256, .f32⟩
  | .hbm, ⟨7, _⟩ => ⟨S4x256, .f32⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S64x1, .i32⟩
  | .hbm, ⟨16, _⟩ => ⟨S64x1024x128, .f32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S64x1, .i32⟩
  | .hbm, ⟨25, _⟩ => ⟨S64x1024x1024, .f32⟩
  | .hbm, ⟨26, _⟩ => ⟨S64x1024x256, .f32⟩
  | .hbm, ⟨27, _⟩ => ⟨S1x1x256, .f32⟩
  | .hbm, ⟨28, _⟩ => ⟨S64x1024x256, .f32⟩
  | .hbm, ⟨29, _⟩ => ⟨S64x1024x256, .f32⟩
  | .hbm, ⟨30, _⟩ => ⟨S_, .f32⟩
  | .hbm, ⟨31, _⟩ => ⟨S64x1024x256, .f32⟩
  | .hbm, ⟨32, _⟩ => ⟨S64x1024x256, .f32⟩
  | .hbm, ⟨33, _⟩ => ⟨S1x256x256, .f32⟩
  | .hbm, ⟨34, _⟩ => ⟨S256x256, .f32⟩
  | .hbm, ⟨35, _⟩ => ⟨S64x1024x256, .f32⟩
  | .hbm, ⟨36, _⟩ => ⟨S64x1024x256, .f32⟩
  | .hbm, ⟨37, _⟩ => ⟨S1x256, .f32⟩
  | .hbm, ⟨38, _⟩ => ⟨S256, .f32⟩
  | .hbm, ⟨39, _⟩ => ⟨S1x1x256, .f32⟩
  | .hbm, ⟨40, _⟩ => ⟨S64x1024x256, .f32⟩
  | .hbm, ⟨41, _⟩ => ⟨S64x1024x256, .f32⟩
  | .hbm, ⟨42, _⟩ => ⟨S_, .f32⟩
  | .hbm, ⟨43, _⟩ => ⟨S64x1024x256, .f32⟩
  | .hbm, ⟨44, _⟩ => ⟨S64x1024x256, .f32⟩
  | .hbm, ⟨45, _⟩ => ⟨S1x256x256, .f32⟩
  | .hbm, ⟨46, _⟩ => ⟨S256x256, .f32⟩
  | .hbm, ⟨47, _⟩ => ⟨S64x1024x256, .f32⟩
  | .hbm, ⟨48, _⟩ => ⟨S64x1024x256, .f32⟩
  | .hbm, ⟨49, _⟩ => ⟨S1x256, .f32⟩
  | .hbm, ⟨50, _⟩ => ⟨S256, .f32⟩
  | .hbm, ⟨51, _⟩ => ⟨S1x1x256, .f32⟩
  | .hbm, ⟨52, _⟩ => ⟨S64x1024x256, .f32⟩
  | .hbm, ⟨53, _⟩ => ⟨S64x1024x256, .f32⟩
  | .hbm, ⟨54, _⟩ => ⟨S_, .f32⟩
  | .hbm, ⟨55, _⟩ => ⟨S64x1024x256, .f32⟩
  | .hbm, ⟨56, _⟩ => ⟨S64x1024x256, .f32⟩
  | .hbm, ⟨57, _⟩ => ⟨S1x256x256, .f32⟩
  | .hbm, ⟨58, _⟩ => ⟨S256x256, .f32⟩
  | .hbm, ⟨59, _⟩ => ⟨S64x1024x256, .f32⟩
  | .hbm, ⟨60, _⟩ => ⟨S64x1024x256, .f32⟩
  | .hbm, ⟨61, _⟩ => ⟨S1x256, .f32⟩
  | .hbm, ⟨62, _⟩ => ⟨S256, .f32⟩
  | .hbm, ⟨63, _⟩ => ⟨S1x1x256, .f32⟩
  | .hbm, ⟨64, _⟩ => ⟨S64x1024x256, .f32⟩
  | .hbm, ⟨65, _⟩ => ⟨S64x1024x256, .f32⟩
  | .hbm, ⟨66, _⟩ => ⟨S_, .f32⟩
  | .hbm, ⟨67, _⟩ => ⟨S64x1024x256, .f32⟩
  | .hbm, ⟨68, _⟩ => ⟨S64x1024x256, .f32⟩
  | .hbm, ⟨69, _⟩ => ⟨S1x256x256, .f32⟩
  | .hbm, ⟨70, _⟩ => ⟨S256x256, .f32⟩
  | .hbm, ⟨71, _⟩ => ⟨S64x1024x256, .f32⟩
  | .hbm, ⟨72, _⟩ => ⟨S64x1024x256, .f32⟩
  | .hbm, ⟨73, _⟩ => ⟨S1x256, .f32⟩
  | .hbm, ⟨74, _⟩ => ⟨S256, .f32⟩
  | .hbm, ⟨75, _⟩ => ⟨S1x1x256, .f32⟩
  | .hbm, ⟨76, _⟩ => ⟨S64x1024x256, .f32⟩
  | .hbm, ⟨77, _⟩ => ⟨S64x1024x256, .f32⟩
  | .hbm, ⟨78, _⟩ => ⟨S_, .f32⟩
  | .hbm, ⟨79, _⟩ => ⟨S64x1024, .f32⟩
  | .hbm, ⟨80, _⟩ => ⟨S_, .f32⟩
  | .hbm, ⟨81, _⟩ => ⟨S64x1024, .f32⟩
  | .hbm, ⟨82, _⟩ => ⟨S64x1024, .f32⟩
  | .hbm, ⟨83, _⟩ => ⟨S64x1024x1, .f32⟩
  | .hbm, ⟨84, _⟩ => ⟨S64x1024x256, .f32⟩
  | .hbm, ⟨85, _⟩ => ⟨S64x1024x256, .f32⟩
  | .hbm, ⟨86, _⟩ => ⟨S64x1024x256, .f32⟩
  | .hbm, ⟨87, _⟩ => ⟨S_, .f32⟩
  | .hbm, ⟨88, _⟩ => ⟨S64x1024, .f32⟩
  | .hbm, ⟨89, _⟩ => ⟨S64x1024x1, .f32⟩
  | .hbm, ⟨90, _⟩ => ⟨S64x1024x256, .f32⟩
  | .hbm, ⟨91, _⟩ => ⟨S64x1024x256, .f32⟩
  | .hbm, ⟨92, _⟩ => ⟨S64x1024x256, .f32⟩
  | .hbm, ⟨93, _⟩ => ⟨S64x1024x1, .i1⟩
  | .hbm, ⟨94, _⟩ => ⟨S64x1024x1, .f32⟩
  | .hbm, ⟨95, _⟩ => ⟨S64x1024x256, .f32⟩
  | .hbm, ⟨96, _⟩ => ⟨S64x1024x256, .f32⟩
  | .hbm, ⟨97, _⟩ => ⟨S_, .f32⟩
  | .hbm, ⟨98, _⟩ => ⟨S64x256, .f32⟩
  | .hbm, ⟨99, _⟩ => ⟨S_, .f32⟩
  | .hbm, ⟨100, _⟩ => ⟨S64x1, .f32⟩
  | .hbm, ⟨101, _⟩ => ⟨S_, .f32⟩
  | .hbm, ⟨102, _⟩ => ⟨S64x1, .f32⟩
  | .hbm, ⟨103, _⟩ => ⟨S64x1, .f32⟩
  | .hbm, ⟨104, _⟩ => ⟨S64x256, .f32⟩
  | .hbm, ⟨105, _⟩ => ⟨S64x256, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_cst : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_cst : Ref sig .tc := ⟨.hbm, 42, rfl⟩
abbrev main_call1_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call2_cst : Ref sig .tc := ⟨.hbm, 54, rfl⟩
abbrev main_call2_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call3_cst : Ref sig .tc := ⟨.hbm, 66, rfl⟩
abbrev main_call3_v0 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst : Ref sig .tc := ⟨.hbm, 78, rfl⟩
abbrev main_v58 : Ref sig .tc := ⟨.hbm, 79, rfl⟩
abbrev main_cst_3 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_4 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_5 : Ref sig .tc := ⟨.hbm, 97, rfl⟩
abbrev main_v74 : Ref sig .tc := ⟨.hbm, 98, rfl⟩
abbrev main_cst_6 : Ref sig .tc := ⟨.hbm, 99, rfl⟩
abbrev main_v75 : Ref sig .tc := ⟨.hbm, 100, rfl⟩
abbrev main_cst_7 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S256_S1x1x256_2 : S256.BroadcastsInDim S1x1x256 (![2] : Fin 1 → Fin S1x1x256.rank)
  bcast_S1x1x256_S64x1024x256_0_1_2 : S1x1x256.BroadcastsInDim S64x1024x256 (![0, 1, 2] : Fin 3 → Fin S64x1024x256.rank)
  bcast_S_S64x1024x256 : S_.BroadcastsInDim S64x1024x256 (![] : Fin 0 → Fin S64x1024x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  reducesTo_S64x1024x256_S64x1024_d2 : S64x1024x256.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x256_0_1_2 : S64x1024x1.BroadcastsInDim S64x1024x256 (![0, 1, 2] : Fin 3 → Fin S64x1024x256.rank)
  reducesTo_S64x1024x256_S64x256_d1 : S64x1024x256.ReducesTo [1] S64x256
  reducesTo_S64x1024x1_S64x1_d1 : S64x1024x1.ReducesTo [1] S64x1
  bcast_S_S64x1 : S_.BroadcastsInDim S64x1 (![] : Fin 0 → Fin S64x1.rank)
  bcast_S64x1_S64x256_0_1 : S64x1.BroadcastsInDim S64x256 (![0, 1] : Fin 2 → Fin S64x256.rank)
  gather_S8x1024x128_S64x1_S64x1024x128_12_0_n_n_0_1_11024128_wf : GatherDims.WF S8x1024x128 S64x1 S64x1024x128 [1, 2] [0] [] [0] [] 1 ![1, 1024, 128]
  gather_S8x1024x1024_S64x1_S64x1024x1024_12_0_n_n_0_1_110241024_wf : GatherDims.WF S8x1024x1024 S64x1 S64x1024x1024 [1, 2] [0] [] [0] [] 1 ![1, 1024, 1024]
  dot_S64x1024x128_S128x256_S64x1024x256_2_0_01_1_n_n_wf : DotDims.WF S64x1024x128 S128x256 S64x1024x256 [2] [0] [0, 1] [1] [] []
  dot_S64x1024x256_S256x256_S64x1024x256_2_0_01_1_n_n_wf : DotDims.WF S64x1024x256 S256x256 S64x1024x256 [2] [0] [0, 1] [1] [] []
  dot_S64x1024x1024_S64x1024x256_S64x1024x256_2_1_1_2_0_0_wf : DotDims.WF S64x1024x1024 S64x1024x256 S64x1024x256 [2] [1] [1] [2] [0] [0]

variable [Facts₀]

def gather_S8x1024x128_S64x1_S64x1024x128_12_0_n_n_0_1_11024128 : GatherDims S8x1024x128 S64x1 S64x1024x128 where
  offsetDims := [1, 2]
  collapsedSliceDims := [0]
  operandBatchingDims := []
  startIndicesBatchingDims := []
  startIndexMap := [0]
  indexVectorDim := 1
  sliceSizes := ![1, 1024, 128]
  wf := gather_S8x1024x128_S64x1_S64x1024x128_12_0_n_n_0_1_11024128_wf
def gather_S8x1024x1024_S64x1_S64x1024x1024_12_0_n_n_0_1_110241024 : GatherDims S8x1024x1024 S64x1 S64x1024x1024 where
  offsetDims := [1, 2]
  collapsedSliceDims := [0]
  operandBatchingDims := []
  startIndicesBatchingDims := []
  startIndexMap := [0]
  indexVectorDim := 1
  sliceSizes := ![1, 1024, 1024]
  wf := gather_S8x1024x1024_S64x1_S64x1024x1024_12_0_n_n_0_1_110241024_wf
def dot_S64x1024x128_S128x256_S64x1024x256_2_0_01_1_n_n : DotDims S64x1024x128 S128x256 S64x1024x256 where
  lhsContracting := [2]
  rhsContracting := [0]
  lhsNonContracting := [0, 1]
  rhsNonContracting := [1]
  lhsBatch := []
  rhsBatch := []
  wf := dot_S64x1024x128_S128x256_S64x1024x256_2_0_01_1_n_n_wf
def dot_S64x1024x256_S256x256_S64x1024x256_2_0_01_1_n_n : DotDims S64x1024x256 S256x256 S64x1024x256 where
  lhsContracting := [2]
  rhsContracting := [0]
  lhsNonContracting := [0, 1]
  rhsNonContracting := [1]
  lhsBatch := []
  rhsBatch := []
  wf := dot_S64x1024x256_S256x256_S64x1024x256_2_0_01_1_n_n_wf
def dot_S64x1024x1024_S64x1024x256_S64x1024x256_2_1_1_2_0_0 : DotDims S64x1024x1024 S64x1024x256 S64x1024x256 where
  lhsContracting := [2]
  rhsContracting := [1]
  lhsNonContracting := [1]
  rhsNonContracting := [2]
  lhsBatch := [0]
  rhsBatch := [0]
  wf := dot_S64x1024x1024_S64x1024x256_S64x1024x256_2_1_1_2_0_0_wf

class Facts : Prop extends Facts₀ where

variable [Facts]
-- ==== Proof.GcnSpec.lean ====
/-
  A four-layer graph-convolution network with a softmax head, pooled over a node mask, over the extended reals.

  One sample has node features xs (a nodes by f features) and an adjacency matrix A (a by a).  The input layer is
  X0 = max(xs·Win + bin, 0).  Each graph layer sends X to A·(X·W) + b; the first three are followed by max(·, 0), the
  fourth by a softmax along each node's row, written the way both programs compute it: the row maximum is the fold
  of max over the row from -inf, joined once more with -inf; the weights are exp(z - rowmax); each is divided by the
  row's sum of weights.  The input layer's output is added back, and the result is averaged over the masked nodes:
  the masked sum of each column divided by max(number of masked nodes, 1).

  In the batch every sample b names its graph by an integer id; the graph's features and adjacency are rows of two
  tables with 8 graphs.  The id is read signed and kept inside [0, 7].
-/
import Idealize.ShloMosaic.PureOps.Ideal
import Idealize.ShloMosaic.Lib.ValueIdx

noncomputable section

namespace Cert.Gcn

open Idealize.ShloMosaic Idealize.ShloMosaic.ValueIdx

/-- The float words 0.0, 1.0 and -inf as extended reals.  Both programs carry the same words, so their values are
    never needed. -/
abbrev zero : EReal := Ideal.ofBits .f32 0x00000000#32
abbrev one : EReal := Ideal.ofBits .f32 0x3F800000#32
abbrev negInf : EReal := Ideal.ofBits .f32 0xFF800000#32

variable {a k h f : ℕ}

/-- A matrix product: entry (n, j) is the sum over e of X(n, e) · W(e, j). -/
def mm (X : Fin a → Fin k → EReal) (W : Fin k → Fin h → EReal) : Fin a → Fin h → EReal :=
  fun n j => ∑ e : Fin k, X n e * W e j

/-- A row vector added to every row. -/
def addRow (Z : Fin a → Fin h → EReal) (b : Fin h → EReal) : Fin a → Fin h → EReal :=
  fun n j => Z n j + b j

/-- The rectifier, entry by entry. -/
def relu (Z : Fin a → Fin h → EReal) : Fin a → Fin h → EReal :=
  fun n j => max (Z n j) zero

/-- One graph layer before its activation: A·(X·W) + b. -/
def layer (A : Fin a → Fin a → EReal) (X : Fin a → Fin k → EReal) (W : Fin k → Fin h → EReal) (b : Fin h → EReal) :
    Fin a → Fin h → EReal :=
  addRow (mm A (mm X W)) b

/-- A row's maximum: the fold of max from -inf, joined with -inf once more. -/
def rowMax (Z : Fin a → Fin h → EReal) (n : Fin a) : EReal :=
  max negInf ((Finset.univ : Finset (Fin h)).fold max negInf (fun q => Z n q))

/-- The softmax weights exp(z - rowmax). -/
def expRow (Z : Fin a → Fin h → EReal) : Fin a → Fin h → EReal :=
  fun n j => Ideal.exp (Z n j - rowMax Z n)

/-- The softmax along each row. -/
def softmax (Z : Fin a → Fin h → EReal) : Fin a → Fin h → EReal :=
  fun n j => Ideal.div (expRow Z n j) (∑ q : Fin h, expRow Z n q)

/-- The masked mean over the nodes, column by column. -/
def pooled (msk : Fin a → EReal) (Y : Fin a → Fin h → EReal) : Fin h → EReal :=
  fun j => Ideal.div (∑ n : Fin a, msk n * Y n j) (max (∑ n : Fin a, msk n) one)

/-- The input layer. -/
def inputLayer (xs : Fin a → Fin f → EReal) (Win : Fin f → Fin h → EReal) (bin : Fin h → EReal) : Fin a → Fin h → EReal :=
  relu (addRow (mm xs Win) bin)

/-- What the fourth layer hands the softmax. -/
def logits (xs : Fin a → Fin f → EReal) (A : Fin a → Fin a → EReal) (Win : Fin f → Fin h → EReal) (bin : Fin h → EReal)
    (Ws : Fin 4 → Fin h → Fin h → EReal) (bs : Fin 4 → Fin h → EReal) : Fin a → Fin h → EReal :=
  layer A (relu (layer A (relu (layer A (relu (layer A (inputLayer xs Win bin) (Ws 0) (bs 0))) (Ws 1) (bs 1))) (Ws 2) (bs 2)))
    (Ws 3) (bs 3)

/-- One sample's output row. -/
def net (xs : Fin a → Fin f → EReal) (A : Fin a → Fin a → EReal) (msk : Fin a → EReal) (Win : Fin f → Fin h → EReal)
    (bin : Fin h → EReal) (Ws : Fin 4 → Fin h → Fin h → EReal) (bs : Fin 4 → Fin h → EReal) : Fin h → EReal :=
  pooled msk (fun n j => softmax (logits xs A Win bin Ws bs) n j + inputLayer xs Win bin n j)

/-- The graph a sample names: its id read signed, kept inside [0, 7]. -/
def gid (graph : (⟨1, ![64]⟩ : Shape).Idx → BitVec 32) (b : Fin 64) : Fin 8 :=
  ⟨min (graph (ix1 b)).toInt.toNat 7, by omega⟩

/-- The batch: entry (b, j) of the result, from the argument arrays. -/
def out (graph : (⟨1, ![64]⟩ : Shape).Idx → BitVec 32) (mask : (⟨2, ![64, 1024]⟩ : Shape).Idx → BitVec 1)
    (xs : (⟨3, ![8, 1024, 128]⟩ : Shape).Idx → EReal) (adj : (⟨3, ![8, 1024, 1024]⟩ : Shape).Idx → EReal)
    (Win : (⟨2, ![128, 256]⟩ : Shape).Idx → EReal) (bin : (⟨1, ![256]⟩ : Shape).Idx → EReal)
    (Ws : (⟨3, ![4, 256, 256]⟩ : Shape).Idx → EReal) (bs : (⟨2, ![4, 256]⟩ : Shape).Idx → EReal)
    (b : Fin 64) (j : Fin 256) : EReal :=
  net (fun n e => xs (ix3 (gid graph b) n e)) (fun n m => adj (ix3 (gid graph b) n m))
    (fun n => FloatOps.uitofp (F := Ideal) .f32 (mask (ix2 b n))) (fun e q => Win (ix2 e q)) (fun q => bin (ix1 q))
    (fun l e q => Ws (ix3 l e q)) (fun l q => bs (ix2 l q)) j

/-- The batch as one array of 64 rows and 256 columns. -/
def outArr (graph : (⟨1, ![64]⟩ : Shape).Idx → BitVec 32) (mask : (⟨2, ![64, 1024]⟩ : Shape).Idx → BitVec 1)
    (xs : (⟨3, ![8, 1024, 128]⟩ : Shape).Idx → EReal) (adj : (⟨3, ![8, 1024, 1024]⟩ : Shape).Idx → EReal)
    (Win : (⟨2, ![128, 256]⟩ : Shape).Idx → EReal) (bin : (⟨1, ![256]⟩ : Shape).Idx → EReal)
    (Ws : (⟨3, ![4, 256, 256]⟩ : Shape).Idx → EReal) (bs : (⟨2, ![4, 256]⟩ : Shape).Idx → EReal) :
    (⟨2, ![64, 256]⟩ : Shape).Idx → EReal :=
  fun i => out graph mask xs adj Win bin Ws bs (i 0) (i 1)

theorem outArr_apply (graph : (⟨1, ![64]⟩ : Shape).Idx → BitVec 32) (mask : (⟨2, ![64, 1024]⟩ : Shape).Idx → BitVec 1)
    (xs : (⟨3, ![8, 1024, 128]⟩ : Shape).Idx → EReal) (adj : (⟨3, ![8, 1024, 1024]⟩ : Shape).Idx → EReal)
    (Win : (⟨2, ![128, 256]⟩ : Shape).Idx → EReal) (bin : (⟨1, ![256]⟩ : Shape).Idx → EReal)
    (Ws : (⟨3, ![4, 256, 256]⟩ : Shape).Idx → EReal) (bs : (⟨2, ![4, 256]⟩ : Shape).Idx → EReal) (b : Fin 64) (j : Fin 256) :
    outArr graph mask xs adj Win bin Ws bs (ix2 b j) = out graph mask xs adj Win bin Ws bs b j := rfl

end Cert.Gcn

end
-- ==== Proof.KernelTable.lean ====
/-
  The prefetched table of the word-level kernel program: the graph ids clipped to [0, 7].

  Before the kernel runs, the host prefix computes min(7, max(0, graph)) entry by entry, signed, and places the result in
  scalar memory; the two index maps that read it pick graph block table[i] of the features and of the adjacency
  array.  A word clipped to [0, 7] is at most 7 unsigned, so the block [1, 1024, ·] at index (table[i], 0, 0) lies
  inside the [8, 1024, ·] array, at every memory.
-/
import proofs.«180856_j20255065768053_2_alg».proof.Proof.Gen.Kernel.Frame.Runs
import proofs.«180856_j20255065768053_2_alg».proof.Proof.GcnSpec

set_option maxRecDepth 16384

noncomputable section

namespace Cert.Kernel.Tbl

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-! ## A word clipped to [0, 7] -/

/-- The signed clip min(7, max(0, w)), read unsigned, is w's signed value kept inside [0, 7]: a negative word goes to 0,
    a word above 7 to 7, any other word is its own value. -/
theorem clip_toNat (w : BitVec 32) : (IntOp.minsi 7#32 (IntOp.maxsi 0#32 w)).toNat = min w.toInt.toNat 7 := by
  have hw := w.isLt
  have e : w.toInt = if 2 * w.toNat < 2 ^ 32 then (w.toNat : Int) else (w.toNat : Int) - 2 ^ 32 := rfl
  have h0 : (0#32 : BitVec 32).toInt = 0 := by decide
  have h7 : (7#32 : BitVec 32).toInt = 7 := by decide
  unfold IntOp.minsi IntOp.maxsi
  simp only [BitVec.slt, decide_eq_true_eq, h0, h7]
  by_cases h1 : w.toInt < 0
  · rw [if_pos h1, h0, if_neg (by decide)]
    show 0 = _
    omega
  · rw [if_neg h1]
    by_cases h2 : 7 < w.toInt
    · rw [if_pos h2]
      show 7 = _
      omega
    · rw [if_neg h2]
      split at e <;> omega

theorem clip_toNat_le (w : BitVec 32) : (IntOp.minsi 7#32 (IntOp.maxsi 0#32 w)).toNat ≤ 7 := by
  rw [clip_toNat]; exact Nat.min_le_right _ _

/-! ## The table's contents -/

/-- The table as an array: the host prefix's clip of the graph ids. -/
theorem tbl_eq : Gen.tbl m 0 =
    minsi (broadcastInDim S64 ![] bcast_S_S64 (constantI S_ 32 7#32))
      (maxsi (broadcastInDim S64 ![] bcast_S_S64 (constantI S_ 32 0#32)) (m (((0 : Dev nD) : Thread nD τ).loc main_arg0))) := by
  unfold Gen.tbl
  show V m 0 main_v0 = _
  dsimp only [Gen.V, Gen.V0]
  simp only [Gen.hostOps0, Gen.hostOps0_1, Gen.hostOps0_2, List.flatten_cons, List.flatten_nil, List.append_nil, List.cons_append, List.nil_append]
  after_results
  rfl

/-- Entry b of the table: graph id b clipped to [0, 7]. -/
theorem tbl_apply (b : Fin 64) : Gen.tbl m 0 (ValueIdx.ix1 b) =
    IntOp.minsi 7#32 (IntOp.maxsi 0#32 (m (((0 : Dev nD) : Thread nD τ).loc main_arg0) (ValueIdx.ix1 b))) := by
  rw [tbl_eq]; rfl

/-- Every entry is at most 7, unsigned. -/
theorem tbl_toNat_le (b : Fin 64) : (Gen.tbl m 0 (ValueIdx.ix1 b)).toNat ≤ 7 := by
  rw [tbl_apply]; exact clip_toNat_le _

/-- Unsigned, entry b is graph id b read signed and kept inside [0, 7]: the graph the specification names. -/
theorem tbl_toNat_eq (b : Fin 64) :
    (Gen.tbl m 0 (ValueIdx.ix1 b)).toNat = (Cert.Gcn.gid (m (((0 : Dev nD) : Thread nD τ).loc main_arg0)) b).val := by
  rw [tbl_apply]; exact clip_toNat _

/-- The same under the evident domain 0 ≤ graph id < 8 (the clip then changes nothing; the equation holds without it). -/
theorem tbl_toNat_of_dom (b : Fin 64)
    (h : 0 ≤ (m (((0 : Dev nD) : Thread nD τ).loc main_arg0) (ValueIdx.ix1 b)).toInt ∧ (m (((0 : Dev nD) : Thread nD τ).loc main_arg0) (ValueIdx.ix1 b)).toInt < 8) :
    (Gen.tbl m 0 (ValueIdx.ix1 b)).toNat = (Cert.Gcn.gid (m (((0 : Dev nD) : Thread nD τ).loc main_arg0)) b).val :=
  tbl_toNat_eq m b

/-! ## The pipeline's side condition -/

/-- The first index map reads one word of the table and returns block (word, 0, 0), at any contents. -/
theorem transform_0_eq (pf : pre0.Contents (Elt F)) (i : grid0.Coords) :
    ∃ x, cc0_transform_0 k0_off1_inb numel1_S1 pf i = ![(pf 0 x).toNat, 0, 0] := ⟨_, rfl⟩
/-- So does the second. -/
theorem transform_1_eq (pf : pre0.Contents (Elt F)) (i : grid0.Coords) :
    ∃ x, cc0_transform_1 k0_off1_inb numel1_S1 pf i = ![(pf 0 x).toNat, 0, 0] := ⟨_, rfl⟩

/-- At contents whose words are all at most 7, both windows' blocks lie inside their arrays of 8 graphs, and each
    block takes every row of its slab: whole words at any packing. -/
theorem ok_of_le (pf : pre0.Contents (Elt F)) (hpf : ∀ x, (pf 0 x).toNat ≤ 7) : ok0 (F := F) pf := by
  refine ⟨fun i => ?_, fun i => ?_⟩
  · obtain ⟨x, e⟩ := transform_0_eq pf i
    have hx := hpf x
    rw [e]
    generalize (pf 0 x).toNat = n at hx
    refine ⟨fun a => ?_, Or.inr (Or.inr ⟨by decide, rfl, rfl, rfl⟩)⟩
    fin_cases a <;> simp [S1x1024x128, S8x1024x128] <;> omega
  · obtain ⟨x, e⟩ := transform_1_eq pf i
    have hx := hpf x
    rw [e]
    generalize (pf 0 x).toNat = n at hx
    refine ⟨fun a => ?_, Or.inr (Or.inr ⟨by decide, rfl, rfl, rfl⟩)⟩
    fin_cases a <;> simp [S1x1024x1024, S8x1024x1024] <;> omega

/-- Every entry of the table, at any index, is at most 7. -/
theorem tbl_le (x : S64.Idx) : (Gen.tbl m 0 x).toNat ≤ 7 := by
  rw [ValueIdx.eq_ix1 x]; exact tbl_toNat_le m _

/-- The side condition holds at every memory: the clip keeps the table inside [0, 7]. -/
theorem ok : Gen.Ok m := ok_of_le (Gen.tbl m) (tbl_le m)

end Cert.Kernel.Tbl

end
-- ==== Proof.KernelIdealTable.lean ====
/-
  The prefetched table of the idealised kernel program: the graph ids clipped to [0, 7].

  Before the kernel runs, the host prefix computes min(7, max(0, graph)) entry by entry, signed, and places the result in
  scalar memory; the two index maps that read it pick graph block table[i] of the features and of the adjacency
  array.  A word clipped to [0, 7] is at most 7 unsigned, so the block [1, 1024, ·] at index (table[i], 0, 0) lies
  inside the [8, 1024, ·] array, at every memory.
-/
import proofs.«180856_j20255065768053_2_alg».proof.Proof.Gen.KernelIdeal.Frame.Runs
import proofs.«180856_j20255065768053_2_alg».proof.Proof.GcnSpec

set_option maxRecDepth 16384

noncomputable section

namespace Cert.KernelIdeal.Tbl

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-! ## A word clipped to [0, 7] -/

/-- The signed clip min(7, max(0, w)), read unsigned, is w's signed value kept inside [0, 7]: a negative word goes to 0,
    a word above 7 to 7, any other word is its own value. -/
theorem clip_toNat (w : BitVec 32) : (IntOp.minsi 7#32 (IntOp.maxsi 0#32 w)).toNat = min w.toInt.toNat 7 := by
  have hw := w.isLt
  have e : w.toInt = if 2 * w.toNat < 2 ^ 32 then (w.toNat : Int) else (w.toNat : Int) - 2 ^ 32 := rfl
  have h0 : (0#32 : BitVec 32).toInt = 0 := by decide
  have h7 : (7#32 : BitVec 32).toInt = 7 := by decide
  unfold IntOp.minsi IntOp.maxsi
  simp only [BitVec.slt, decide_eq_true_eq, h0, h7]
  by_cases h1 : w.toInt < 0
  · rw [if_pos h1, h0, if_neg (by decide)]
    show 0 = _
    omega
  · rw [if_neg h1]
    by_cases h2 : 7 < w.toInt
    · rw [if_pos h2]
      show 7 = _
      omega
    · rw [if_neg h2]
      split at e <;> omega

theorem clip_toNat_le (w : BitVec 32) : (IntOp.minsi 7#32 (IntOp.maxsi 0#32 w)).toNat ≤ 7 := by
  rw [clip_toNat]; exact Nat.min_le_right _ _

/-! ## The table's contents -/

/-- The table as an array: the host prefix's clip of the graph ids. -/
theorem tbl_eq : Gen.tbl m 0 =
    minsi (broadcastInDim S64 ![] bcast_S_S64 (constantI S_ 32 7#32))
      (maxsi (broadcastInDim S64 ![] bcast_S_S64 (constantI S_ 32 0#32)) (m (((0 : Dev nD) : Thread nD τ).loc main_arg0))) := by
  unfold Gen.tbl
  show V m 0 main_v0 = _
  dsimp only [Gen.V, Gen.V0]
  simp only [Gen.hostOps0, Gen.hostOps0_1, Gen.hostOps0_2, List.flatten_cons, List.flatten_nil, List.append_nil, List.cons_append, List.nil_append]
  after_results
  rfl

/-- Entry b of the table: graph id b clipped to [0, 7]. -/
theorem tbl_apply (b : Fin 64) : Gen.tbl m 0 (ValueIdx.ix1 b) =
    IntOp.minsi 7#32 (IntOp.maxsi 0#32 (m (((0 : Dev nD) : Thread nD τ).loc main_arg0) (ValueIdx.ix1 b))) := by
  rw [tbl_eq]; rfl

/-- Every entry is at most 7, unsigned. -/
theorem tbl_toNat_le (b : Fin 64) : (Gen.tbl m 0 (ValueIdx.ix1 b)).toNat ≤ 7 := by
  rw [tbl_apply]; exact clip_toNat_le _

/-- Unsigned, entry b is graph id b read signed and kept inside [0, 7]: the graph the specification names. -/
theorem tbl_toNat_eq (b : Fin 64) :
    (Gen.tbl m 0 (ValueIdx.ix1 b)).toNat = (Cert.Gcn.gid (m (((0 : Dev nD) : Thread nD τ).loc main_arg0)) b).val := by
  rw [tbl_apply]; exact clip_toNat _

/-- The same under the evident domain 0 ≤ graph id < 8 (the clip then changes nothing; the equation holds without it). -/
theorem tbl_toNat_of_dom (b : Fin 64)
    (h : 0 ≤ (m (((0 : Dev nD) : Thread nD τ).loc main_arg0) (ValueIdx.ix1 b)).toInt ∧ (m (((0 : Dev nD) : Thread nD τ).loc main_arg0) (ValueIdx.ix1 b)).toInt < 8) :
    (Gen.tbl m 0 (ValueIdx.ix1 b)).toNat = (Cert.Gcn.gid (m (((0 : Dev nD) : Thread nD τ).loc main_arg0)) b).val :=
  tbl_toNat_eq m b

/-! ## The pipeline's side condition -/

/-- The first index map reads one word of the table and returns block (word, 0, 0), at any contents. -/
theorem transform_0_eq (pf : pre0.Contents (Elt F)) (i : grid0.Coords) :
    ∃ x, cc0_transform_0 k0_off1_inb numel1_S1 pf i = ![(pf 0 x).toNat, 0, 0] := ⟨_, rfl⟩
/-- So does the second. -/
theorem transform_1_eq (pf : pre0.Contents (Elt F)) (i : grid0.Coords) :
    ∃ x, cc0_transform_1 k0_off1_inb numel1_S1 pf i = ![(pf 0 x).toNat, 0, 0] := ⟨_, rfl⟩

/-- At contents whose words are all at most 7, both windows' blocks lie inside their arrays of 8 graphs, and each
    block takes every row of its slab: whole words at any packing. -/
theorem ok_of_le (pf : pre0.Contents (Elt F)) (hpf : ∀ x, (pf 0 x).toNat ≤ 7) : ok0 (F := F) pf := by
  refine ⟨fun i => ?_, fun i => ?_⟩
  · obtain ⟨x, e⟩ := transform_0_eq pf i
    have hx := hpf x
    rw [e]
    generalize (pf 0 x).toNat = n at hx
    refine ⟨fun a => ?_, Or.inr (Or.inr ⟨by decide, rfl, rfl, rfl⟩)⟩
    fin_cases a <;> simp [S1x1024x128, S8x1024x128] <;> omega
  · obtain ⟨x, e⟩ := transform_1_eq pf i
    have hx := hpf x
    rw [e]
    generalize (pf 0 x).toNat = n at hx
    refine ⟨fun a => ?_, Or.inr (Or.inr ⟨by decide, rfl, rfl, rfl⟩)⟩
    fin_cases a <;> simp [S1x1024x1024, S8x1024x1024] <;> omega

/-- Every entry of the table, at any index, is at most 7. -/
theorem tbl_le (x : S64.Idx) : (Gen.tbl m 0 x).toNat ≤ 7 := by
  rw [ValueIdx.eq_ix1 x]; exact tbl_toNat_le m _

/-- The side condition holds at every memory: the clip keeps the table inside [0, 7]. -/
theorem ok : Gen.Ok m := ok_of_le (Gen.tbl m) (tbl_le m)

end Cert.KernelIdeal.Tbl

end
-- ==== Proof.KernelPiece.lean ====
/-
  What one grid point of the kernel writes into its output block, as a function of the blocks it reads.

  The body loads its seven input blocks whole, except the stacked weights and biases, of which it reads the four
  layers one slice at a time; it stores one row of 256 entries.  The stored row is the last payload of the body's
  arithmetic applied to the loaded blocks and slices.  This holds at every float instance.
-/
import proofs.«180856_j20255065768053_2_alg».proof.Proof.Gen.KernelIdeal.Frame
import Idealize.ShloMosaic.Lib.Pipeline.Value

set_option maxRecDepth 16384

noncomputable section

namespace Cert.KernelIdeal.Body

open Idealize.ShloMosaic Idealize.ShloMosaic.TcCoe Idealize.ShloMosaic.Tactic Idealize.SL.Sem
open Cert.KernelIdeal Cert.KernelIdeal.Gen

variable {F : FTy → Type} [FloatOps F]

theorem hz3 : (![0, 0, 0] : Fin 3 → ℕ) = fun _ => 0 := by funext a; fin_cases a <;> rfl
theorem hz2 : (![0, 0] : Fin 2 → ℕ) = fun _ => 0 := by funext a; fin_cases a <;> rfl

/-- Layer l of the stacked weights: the slice [l, 0:256, 0:256]. -/
def wSlice0 (x5 : Vec F S4x256x256 .bf16) : Vec F S1x256x256 .bf16 :=
  View.ld x5 (Rect.unit (s := S4x256x256) ![0, 0, 0] S1x256x256.size inb_S4x256x256_S1x256x256_0_0_0)
def wSlice1 (x5 : Vec F S4x256x256 .bf16) : Vec F S1x256x256 .bf16 :=
  View.ld x5 (Rect.unit (s := S4x256x256) ![1, 0, 0] S1x256x256.size inb_S4x256x256_S1x256x256_1_0_0)
def wSlice2 (x5 : Vec F S4x256x256 .bf16) : Vec F S1x256x256 .bf16 :=
  View.ld x5 (Rect.unit (s := S4x256x256) ![2, 0, 0] S1x256x256.size inb_S4x256x256_S1x256x256_2_0_0)
def wSlice3 (x5 : Vec F S4x256x256 .bf16) : Vec F S1x256x256 .bf16 :=
  View.ld x5 (Rect.unit (s := S4x256x256) ![3, 0, 0] S1x256x256.size inb_S4x256x256_S1x256x256_3_0_0)

/-- Layer l of the stacked biases: the slice [l, 0:256]. -/
def bSlice0 (x6 : Vec F S4x256 .f32) : Vec F S1x256 .f32 :=
  View.ld x6 (Rect.unit (s := S4x256) ![0, 0] S1x256.size inb_S4x256_S1x256_0_0)
def bSlice1 (x6 : Vec F S4x256 .f32) : Vec F S1x256 .f32 :=
  View.ld x6 (Rect.unit (s := S4x256) ![1, 0] S1x256.size inb_S4x256_S1x256_1_0)
def bSlice2 (x6 : Vec F S4x256 .f32) : Vec F S1x256 .f32 :=
  View.ld x6 (Rect.unit (s := S4x256) ![2, 0] S1x256.size inb_S4x256_S1x256_2_0)
def bSlice3 (x6 : Vec F S4x256 .f32) : Vec F S1x256 .f32 :=
  View.ld x6 (Rect.unit (s := S4x256) ![3, 0] S1x256.size inb_S4x256_S1x256_3_0)

/-- The second layer's product X1·W1, from the blocks. -/
def xw1 (x0 : Vec F S1x1024x128 .bf16) (x1 : Vec F S1x1024x1024 .bf16) (x3 : Vec F S128x256 .bf16) (x4 : Vec F S1x256 .f32)
    (x5 : Vec F S4x256x256 .bf16) (x6 : Vec F S4x256 .f32) : FVec F S1024x256 .f32 :=
  k0_pay5 x0 x3 x4 x1 (wSlice0 x5) (bSlice0 x6) (wSlice1 x5)

/-- The row one grid point stores, from the blocks it reads: features x0, adjacency x1, mask x2, input weights x3,
    input bias x4, stacked weights x5, stacked biases x6. -/
def body (x0 : Vec F S1x1024x128 .bf16) (x1 : Vec F S1x1024x1024 .bf16) (x2 : Vec F S1x1x1024 .f32) (x3 : Vec F S128x256 .bf16)
    (x4 : Vec F S1x256 .f32) (x5 : Vec F S4x256x256 .bf16) (x6 : Vec F S4x256 .f32) : Vec F S1x1x256 .f32 :=
  k0_pay1 (k0_pay2 x0 x3 x4)
    (k0_pay6 (k0_pay3 x1) (k0_pay4 (bSlice1 x6)) (xw1 x0 x1 x3 x4 x5 x6) (wSlice2 x5) (bSlice2 x6) (wSlice3 x5) (bSlice3 x6))
    (k0_pay7 (k0_pay3 x1) (k0_pay4 (bSlice1 x6)) (xw1 x0 x1 x3 x4 x5 x6) (wSlice2 x5) (bSlice2 x6) (wSlice3 x5) (bSlice3 x6))
    x2

/-- The run's one store leaves the body's row in the output block, whatever the staging buffers are. -/
theorem out_eq_body (c : Dev nD) (i : grid0.Coords) (arg2 : Memref sig .tc .vmem S1x1024x128 .bf16) (harg2 : arg2.IsWhole) (arg3 : Memref sig .tc .vmem S1x1024x1024 .bf16) (harg3 : arg3.IsWhole) (arg4 : Memref sig .tc .vmem S1x1x1024 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S4x256x256 .bf16) (harg7 : arg7.IsWhole) (arg8 : Memref sig .tc .vmem S4x256 .f32) (harg8 : arg8.IsWhole) (arg9 : Memref sig .tc .vmem S1x1x256 .f32) (harg9 : arg9.IsWhole)
    (x0 : Vec F S1x1024x128 .bf16) (x1 : Vec F S1x1024x1024 .bf16) (x2 : Vec F S1x1x1024 .f32) (x3 : Vec F S128x256 .bf16) (x4 : Vec F S1x256 .f32) (x5 : Vec F S4x256x256 .bf16) (x6 : Vec F S4x256 .f32) (xt0 : TbBuf0 (F := F) c tbM0_0) :
    out0_A_7 c i arg2 harg2 arg3 harg3 arg4 harg4 arg5 harg5 arg6 harg6 arg7 harg7 arg8 harg8 arg9 harg9 x0 x1 x2 x3 x4 x5 x6 xt0
      = body x0 x1 x2 x3 x4 x5 x6 := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6 xt0)]
  unfold kernelRun0_A
  dsimp only
  sl_unfold_words
  rw [View.canon_unit_zero hz3]
  simp only [View.readAt_eq_ld, harg2.read_unread, harg3.read_unread, harg4.read_unread, harg5.read_unread, harg6.read_unread,
    harg7.read_unread, harg8.read_unread, View.ld_unit_zero (S := S1x1024x128) hz3, View.ld_unit_zero (S := S1x1024x1024) hz3,
    View.ld_unit_zero (S := S1x1x1024) hz3, View.ld_unit_zero (S := S128x256) hz2, View.ld_unit_zero (S := S1x256) hz2]
  rfl

end Cert.KernelIdeal.Body

end
-- ==== Proof.LibDenseRows.lean ====
/-
  A dense layer over the extended reals, read at an index.

  For a row-major matrix product x · W with x : [M, K] and W : [K, N] (the plain dimension numbers: the
  left operand contracted on its last axis, the right on its first), accumulated into a zero matrix, the
  entry (p, j) is the finite sum over e of x(p, e) · W(e, j). Adding a bias given as a one-row matrix
  b : [1, N] broadcast down the M rows adds b(0, j). A rectifier written as the maximum with a zero splat,
  followed by a change of float format (the identity on the extended reals), is max(v, 0) entry by entry.
  Nothing here needs the entries to be finite: the extended reals' sum of finitely many terms is defined
  whatever the terms are.
-/
import Idealize.ShloMosaic.PureOps.Ideal.Laws
import Idealize.ShloMosaic.Lib.ValueIdx
import Idealize.ShloMosaic.Lib.ValueLayout

noncomputable section

namespace Cert.LibDenseRows

open Idealize.ShloMosaic Idealize.ShloMosaic.ValueIdx

variable {M K N : ℕ} {φ₁ φ₂ : FTy}

/-- The product x · W into the zero matrix, at (p, j): the sum over the shared axis of x(p, e) · W(e, j). -/
theorem matmul_plain_zero_apply (D : DotDims ⟨2, ![M, K]⟩ ⟨2, ![K, N]⟩ ⟨2, ![M, N]⟩) (hD : D = DotDims.plain M K N)
    (prec : Option ContractPrecision) (x : FVec Ideal ⟨2, ![M, K]⟩ φ₁) (W : FVec Ideal ⟨2, ![K, N]⟩ φ₂)
    (p : Fin M) (j : Fin N) :
    FloatOps.matmul D prec x W (constant (F := Ideal) ⟨2, ![M, N]⟩ .f32 0x00000000#32) (ix2 p j)
      = ∑ e : Fin K, x (ix2 p e) * W (ix2 e j) := by
  subst hD
  rw [Ideal.matmul_constant_zero_apply, ← Equiv.sum_comp (contrEquiv1 (DotDims.plain M K N) K rfl rfl).symm]
  refine Finset.sum_congr rfl fun e _ => ?_
  have he := contrEquiv1_symm_val (DotDims.plain M K N) K rfl rfl e
  have el : (DotDims.plain M K N).lhsIdx (ix2 p j) ((contrEquiv1 (DotDims.plain M K N) K rfl rfl).symm e) = ix2 p e :=
    funext fun a => Fin.ext (by
      match a with
      | ⟨0, _⟩ => rfl
      | ⟨1, _⟩ => exact ((DotDims.plain M K N).lhsIdx_val_of_single rfl _ _).trans he)
  have er : (DotDims.plain M K N).rhsIdx (ix2 p j) ((contrEquiv1 (DotDims.plain M K N) K rfl rfl).symm e) = ix2 e j :=
    funext fun a => Fin.ext (by
      match a with
      | ⟨0, _⟩ => exact ((DotDims.plain M K N).rhsIdx_val_of_single rfl _ _).trans he
      | ⟨1, _⟩ => rfl)
  rw [el, er]

/-- x · W + b with the bias a one-row matrix broadcast down the rows, at (p, j). -/
theorem dense_apply (D : DotDims ⟨2, ![M, K]⟩ ⟨2, ![K, N]⟩ ⟨2, ![M, N]⟩) (hD : D = DotDims.plain M K N)
    (prec : Option ContractPrecision) (x : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (p : Fin M) (j : Fin N) :
    addf (FloatOps.matmul D prec x W (constant (F := Ideal) ⟨2, ![M, N]⟩ .f32 0x00000000#32))
        (broadcastTo ⟨2, ![M, N]⟩ b hb) (ix2 p j)
      = (∑ e : Fin K, x (ix2 p e) * W (ix2 e j)) + b (ix2 (0 : Fin 1) j) := by
  rw [addf_apply, matmul_plain_zero_apply D hD, broadcastTo_1b_ab_apply]

/-- The rectifier max(v, 0) followed by a narrowing of the float format, entry by entry. -/
theorem relu_narrow_apply {s : Shape} {ψ : FTy} (v : FVec Ideal s .f32) (h : ψ.bits < (FTy.f32).bits) (i : s.Idx) :
    (truncf ψ (maximumf v (broadcast s (Scalar.ofBits (F := Ideal) .f32 0x00000000#32))) h : FVec Ideal s ψ) i
      = max (v i) (Ideal.ofBits .f32 0x00000000#32) := rfl

end Cert.LibDenseRows

end
-- ==== Proof.LibRowReduce.lean ====
/-
  A matrix reduced along its rows, the result kept as a column: the layout steps and the reductions, read at an index.

  A reduction of an `[a, b]` matrix over its second axis yields a vector of `a` entries.  Kept as a column it is cast to
  `[a, 1]`, and to meet the matrix again it is broadcast back to `[a, b]`: entry `(i, j)` of the broadcast is entry `i` of
  the vector.  The reductions themselves, at the extended reals: a row's maximum is the fold of `max` over the row from
  the starting value, a row's sum is the sum over the row.  The same two readings hold for the last axis of an
  `[n, a, b]` array reduced by a host program, where the starting value is added in front of the sum.
-/
import Idealize.ShloMosaic.Lib.Pipeline.Value
import Idealize.ShloMosaic.Lib.ValueIdx
import Idealize.ShloMosaic.PureOps.Ideal.Laws

noncomputable section

namespace Cert.RowReduce

open Idealize.ShloMosaic Idealize.ShloMosaic.ValueIdx

variable {α : Type}

/-! ## The column of a vector -/

/-- A vector of `a` entries cast to a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along the rows of an `[a, b]` matrix reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector kept as a column and broadcast along the rows reads, at `(i, j)`, the vector's entry `i`. -/
theorem broadcastTo_column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

/-! ## A matrix reduced along its rows -/

/-- Over entry `i` of the reduced vector, the matrix index with `k` on the reduced axis is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

variable {φ : FTy}

/-- A row's maximum at the extended reals: the fold of `max` over the row's entries from the starting value. -/
theorem multiReduction_maximumf_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  have e : (X ∘ h.lift (ix1 i)) = fun k => X (ix2 i k) := funext fun k => congrArg X (lift_row h i k)
  rw [Ideal.multiReduction_maximumf_single, e]
  rfl

/-- A row's sum at the extended reals: the sum over the row's entries. -/
theorem multiReduction_add_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ k : Fin b, X (ix2 i k) := by
  rw [Ideal.multiReduction_add_single]
  exact Finset.sum_congr rfl fun k _ => congrArg X (lift_row h i k)

/-! ## The last axis of a rank-3 array reduced by a host program -/

/-- Over entry `(p, i)` of the reduced array, the source index with `k` on the reduced axis is `(p, i, k)`. -/
theorem lift_last3 {n a b : ℕ} (h : (⟨3, ![n, a, b]⟩ : Shape).Reduces [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host maximum over the last axis: the fold of `max` over that axis from the starting value. -/
theorem hostReduce_maximumf_last3 {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (i : Fin a) :
    Host.reduce (FloatOps.maximumf (F := Ideal) (φ := φ)) x init h' hu (ix2 p i)
      = (Finset.univ : Finset (Fin b)).fold max (init (Shape.Idx.first hu)) (fun k => x (ix3 p i k)) := by
  have e : (x ∘ h.lift (ix2 p i)) = fun k => x (ix3 p i k) := funext fun k => congrArg x (lift_last3 h p i k)
  rw [Host.reduce_eq_fold_single (FloatOps.maximumf (F := Ideal) (φ := φ)) x init h' h hu, e]
  rfl

/-- A host sum over the last axis: the starting value plus the sum over that axis. -/
theorem hostReduceAdd_last3 {n a b : ℕ} (x : (⟨3, ![n, a, b]⟩ : Shape).Idx → EReal) (init : EReal)
    (h' : (⟨3, ![n, a, b]⟩ : Shape).ReducesTo [2] ⟨2, ![n, a]⟩) (h : (⟨3, ![n, a, b]⟩ : Shape).Reduces [2] ⟨2, ![n, a]⟩)
    (p : Fin n) (i : Fin a) :
    Ideal.hostReduceAdd h' x init (ix2 p i) = init + ∑ k : Fin b, x (ix3 p i k) := by
  rw [Ideal.hostReduceAdd_single h' h]
  exact congrArg (init + ·) (Finset.sum_congr rfl fun k _ => congrArg x (lift_last3 h p i k))

end Cert.RowReduce

end
-- ==== Proof.KernelLayers.lean ====
/-
  The kernel body's arithmetic at the extended reals, read as matrices of extended reals.

  A vector of shape [a, b] is read as the matrix (n, j) ↦ v(n, j).  Under this reading a product into the zero
  accumulator is the matrix product, a one-row bias broadcast down the rows adds the row, the maximum with a zero
  splat is the rectifier, and a change of float format is the identity.  The softmax head subtracts each row's
  maximum (the fold of max from -inf, joined with -inf), exponentiates, and broadcasts each row's sum of weights
  along the row.  The last payload forms softmax + input layer, multiplies by the mask row from the left (a
  1 × 1024 by 1024 × 256 product) and divides by max(number of masked nodes, 1).
-/
import proofs.«180856_j20255065768053_2_alg».proof.Proof.Gen.KernelIdeal.Skeleton
import proofs.«180856_j20255065768053_2_alg».proof.Proof.GcnSpec
import proofs.«180856_j20255065768053_2_alg».proof.Proof.LibDenseRows
import proofs.«180856_j20255065768053_2_alg».proof.Proof.LibRowReduce
import Idealize.ShloMosaic.Lib.Pipeline.Value
import Idealize.ShloMosaic.Lib.ValueIdx
import Idealize.ShloMosaic.Lib.ValueLayout

noncomputable section

namespace Cert.KernelIdeal.Layers

open Idealize.ShloMosaic Idealize.ShloMosaic.ValueIdx Cert.KernelIdeal Cert.KernelIdeal.Gen

/-- A vector of shape [a, b] as a matrix of extended reals. -/
def mat {a b : ℕ} {φ : FTy} (v : FVec Ideal ⟨2, ![a, b]⟩ φ) : Fin a → Fin b → EReal := fun n j => v (ix2 n j)

theorem mat_apply {a b : ℕ} {φ : FTy} (v : FVec Ideal ⟨2, ![a, b]⟩ φ) (n : Fin a) (j : Fin b) : mat v n j = v (ix2 n j) := rfl

variable {φ₁ φ₂ : FTy}

/-! ## The four matrix products -/

theorem mat_mm_in (x : FVec Ideal S1024x128 φ₁) (w : FVec Ideal S128x256 φ₂) :
    mat (matmul dot_S1024x128_S128x256_S1024x256_1_0_0_1_n_n none x w (constant (F := Ideal) S1024x256 .f32 0x00000000#32))
      = Gcn.mm (mat x) (mat w) :=
  funext fun n => funext fun j => Cert.LibDenseRows.matmul_plain_zero_apply _ rfl none x w n j

theorem mat_mm_hid (x : FVec Ideal S1024x256 φ₁) (w : FVec Ideal S256x256 φ₂) :
    mat (matmul dot_S1024x256_S256x256_S1024x256_1_0_0_1_n_n none x w (constant (F := Ideal) S1024x256 .f32 0x00000000#32))
      = Gcn.mm (mat x) (mat w) :=
  funext fun n => funext fun j => Cert.LibDenseRows.matmul_plain_zero_apply _ rfl none x w n j

theorem mat_mm_adj (x : FVec Ideal S1024x1024 φ₁) (w : FVec Ideal S1024x256 φ₂) :
    mat (matmul dot_S1024x1024_S1024x256_S1024x256_1_0_0_1_n_n none x w (constant (F := Ideal) S1024x256 .f32 0x00000000#32))
      = Gcn.mm (mat x) (mat w) :=
  funext fun n => funext fun j => Cert.LibDenseRows.matmul_plain_zero_apply _ rfl none x w n j

theorem mat_mm_pool (x : FVec Ideal S1x1024 φ₁) (w : FVec Ideal S1024x256 φ₂) :
    mat (matmul dot_S1x1024_S1024x256_S1x256_1_0_0_1_n_n none x w (constant (F := Ideal) S1x256 .f32 0x00000000#32))
      = Gcn.mm (mat x) (mat w) :=
  funext fun n => funext fun j => Cert.LibDenseRows.matmul_plain_zero_apply _ rfl none x w n j

/-! ## Bias, rectifier, format changes, layout -/

theorem mat_addRow (u : FVec Ideal S1024x256 .f32) (b : FVec Ideal S1x256 .f32) (hb : S1x256.Broadcasts S1024x256) :
    mat (addf u (broadcastTo S1024x256 b hb)) = Gcn.addRow (mat u) (fun q => b (ix2 (0 : Fin 1) q)) :=
  funext fun n => funext fun j =>
    congrArg (fun z => u (ix2 n j) + z) (broadcastTo_1b_ab_apply b hb n j)

theorem mat_relu (u : FVec Ideal S1024x256 .f32) :
    mat (maximumf u (broadcast S1024x256 (Scalar.ofBits (F := Ideal) .f32 0x00000000#32))) = Gcn.relu (mat u) := rfl

theorem mat_truncf {a b : ℕ} (u : FVec Ideal ⟨2, ![a, b]⟩ .f32) (h : (FTy.bf16).bits < (FTy.f32).bits) :
    mat (truncf .bf16 u h) = mat u := rfl

/-- A [1, a, b] block viewed as [a, b]. -/
theorem mat_drop1 {a b : ℕ} {φ : FTy} (x : FVec Ideal ⟨3, ![1, a, b]⟩ φ) (h : (⟨3, ![1, a, b]⟩ : Shape).ShapeCasts ⟨2, ![a, b]⟩) :
    mat (shapeCast ⟨2, ![a, b]⟩ x h) = fun n e => x (ix3 (0 : Fin 1) n e) :=
  funext fun n => funext fun e => shapeCast_1ab_ab_apply x h n e

/-! ## The softmax head -/

theorem mat_expRow (u : FVec Ideal S1024x256 .f32) :
    mat (exp (subf u (broadcastTo S1024x256 (shapeCast S1024x1
        (maximumf (broadcast S1024 (Scalar.ofBits (F := Ideal) .f32 0xFF800000#32))
          (multiReduction .maximumf [1] S1024 u 0xFF800000#32 reduces_S1024x256_S1024 (.inl rfl) rfl))
        shapeCasts_S1024_S1024x1) broadcasts_S1024x1_S1024x256)))
      = Gcn.expRow (mat u) := by
  funext n j
  refine congrArg (fun z => Ideal.exp (u (ix2 n j) - z)) ?_
  refine (Cert.RowReduce.broadcastTo_column_apply _ _ _ n j).trans ?_
  exact congrArg (fun z => max (Ideal.ofBits .f32 0xFF800000#32) z)
    (Cert.RowReduce.multiReduction_maximumf_row u _ _ _ _ n)

theorem mat_sumRow (u : FVec Ideal S1024x256 .f32) :
    mat (broadcastTo S1024x256 (shapeCast S1024x1
        (multiReduction .add [1] S1024 u 0x00000000#32 reduces_S1024x256_S1024 (.inl rfl) rfl)
        shapeCasts_S1024_S1024x1) broadcasts_S1024x1_S1024x256)
      = fun n _ => ∑ q : Fin 256, mat u n q := by
  funext n j
  refine (Cert.RowReduce.broadcastTo_column_apply _ _ _ n j).trans ?_
  exact Cert.RowReduce.multiReduction_add_row u _ _ _ _ n

/-! ## The payloads -/

/-- The input layer. -/
theorem pay2_eq (v0 : FVec Ideal S1x1024x128 .bf16) (v2 : FVec Ideal S128x256 .bf16) (v4 : FVec Ideal S1x256 .f32) :
    mat (k0_pay2 (F := Ideal) v0 v2 v4)
      = Gcn.inputLayer (fun n e => v0 (ix3 (0 : Fin 1) n e)) (mat v2) (fun q => v4 (ix2 (0 : Fin 1) q)) := by
  unfold k0_pay2
  dsimp only
  rw [mat_relu, mat_addRow, mat_mm_in, mat_drop1, shapeCast_self, shapeCast_self]
  rfl

/-- The adjacency block viewed as a matrix. -/
theorem pay3_eq (v11 : FVec Ideal S1x1024x1024 .bf16) :
    mat (k0_pay3 (F := Ideal) v11) = fun n m => v11 (ix3 (0 : Fin 1) n m) := by
  unfold k0_pay3
  exact mat_drop1 v11 _

/-- A bias row cast to a vector and back is itself. -/
theorem pay4_eq (v28 : FVec Ideal S1x256 .f32) : k0_pay4 (F := Ideal) v28 = v28 := by
  unfold k0_pay4
  exact shapeCast_shapeCast v28 _ _

/-- The first graph layer, rectified, times the second layer's weights. -/
theorem pay5_eq (v0 : FVec Ideal S1x1024x128 .bf16) (v2 : FVec Ideal S128x256 .bf16) (v4 : FVec Ideal S1x256 .f32)
    (v11 : FVec Ideal S1x1024x1024 .bf16) (v13 : FVec Ideal S1x256x256 .bf16) (v15 : FVec Ideal S1x256 .f32)
    (v26 : FVec Ideal S1x256x256 .bf16) :
    mat (k0_pay5 (F := Ideal) v0 v2 v4 v11 v13 v15 v26)
      = Gcn.mm (Gcn.relu (Gcn.layer (fun n m => v11 (ix3 (0 : Fin 1) n m))
            (Gcn.inputLayer (fun n e => v0 (ix3 (0 : Fin 1) n e)) (mat v2) (fun q => v4 (ix2 (0 : Fin 1) q)))
            (fun e q => v13 (ix3 (0 : Fin 1) e q)) (fun q => v15 (ix2 (0 : Fin 1) q))))
          (fun e q => v26 (ix3 (0 : Fin 1) e q)) := by
  unfold k0_pay5
  dsimp only
  simp only [mat_mm_hid, mat_mm_adj, mat_truncf, mat_relu, mat_addRow, pay2_eq, pay3_eq, mat_drop1, shapeCast_shapeCast]
  rfl

/-- The softmax weights of the fourth layer, from the adjacency, the second layer's bias and product, and the
    third and fourth layers' weights and biases. -/
theorem pay6_eq (v12 : FVec Ideal S1024x1024 .bf16) (v30 : FVec Ideal S1x256 .f32) (v32 : FVec Ideal S1024x256 .f32)
    (v39 : FVec Ideal S1x256x256 .bf16) (v41 : FVec Ideal S1x256 .f32) (v52 : FVec Ideal S1x256x256 .bf16)
    (v54 : FVec Ideal S1x256 .f32) :
    mat (k0_pay6 (F := Ideal) v12 v30 v32 v39 v41 v52 v54)
      = Gcn.expRow (Gcn.layer (mat v12)
          (Gcn.relu (Gcn.layer (mat v12)
            (Gcn.relu (Gcn.addRow (Gcn.mm (mat v12) (mat v32)) (fun q => v30 (ix2 (0 : Fin 1) q))))
            (fun e q => v39 (ix3 (0 : Fin 1) e q)) (fun q => v41 (ix2 (0 : Fin 1) q))))
          (fun e q => v52 (ix3 (0 : Fin 1) e q)) (fun q => v54 (ix2 (0 : Fin 1) q))) := by
  unfold k0_pay6
  dsimp only
  rw [mat_expRow]
  simp only [mat_mm_hid, mat_mm_adj, mat_truncf, mat_relu, mat_addRow, mat_drop1, shapeCast_shapeCast]
  rfl

/-- Each row's sum of softmax weights, along the row. -/
theorem pay7_eq (v12 : FVec Ideal S1024x1024 .bf16) (v30 : FVec Ideal S1x256 .f32) (v32 : FVec Ideal S1024x256 .f32)
    (v39 : FVec Ideal S1x256x256 .bf16) (v41 : FVec Ideal S1x256 .f32) (v52 : FVec Ideal S1x256x256 .bf16)
    (v54 : FVec Ideal S1x256 .f32) :
    mat (k0_pay7 (F := Ideal) v12 v30 v32 v39 v41 v52 v54)
      = fun n _ => ∑ q : Fin 256, mat (k0_pay6 (F := Ideal) v12 v30 v32 v39 v41 v52 v54) n q := by
  unfold k0_pay7
  exact mat_sumRow _

/-- The stored row: the masked mean of softmax + input layer. -/
theorem pay1_apply (v10 v69 v72 : FVec Ideal S1024x256 .f32) (v75 : FVec Ideal S1x1x1024 .f32) (j : Fin 256) :
    k0_pay1 (F := Ideal) v10 v69 v72 v75 (ix3 (0 : Fin 1) (0 : Fin 1) j)
      = Gcn.pooled (fun n => v75 (ix3 (0 : Fin 1) (0 : Fin 1) n))
          (fun n q => Ideal.div (mat v69 n q) (mat v72 n q) + mat v10 n q) j := by
  unfold k0_pay1
  dsimp only
  refine (shapeCast_ab_1ab_apply _ _ (0 : Fin 1) (0 : Fin 1) j).trans ?_
  have hnum : (matmul dot_S1x1024_S1024x256_S1x256_1_0_0_1_n_n none
        (truncf .bf16 (shapeCast S1x1024 v75 shapeCasts_S1x1x1024_S1x1024) bitsLt_bf16_f32)
        (truncf .bf16 (addf (divf v69 v72) v10) bitsLt_bf16_f32)
        (constant (F := Ideal) S1x256 .f32 0x00000000#32)) (ix2 (0 : Fin 1) j)
      = ∑ n : Fin 1024, v75 (ix3 (0 : Fin 1) (0 : Fin 1) n) * (Ideal.div (mat v69 n j) (mat v72 n j) + mat v10 n j) := by
    refine (Cert.LibDenseRows.matmul_plain_zero_apply _ rfl none _ _ (0 : Fin 1) j).trans ?_
    refine Finset.sum_congr rfl fun n _ => ?_
    exact congrArg (fun z => z * (Ideal.div (mat v69 n j) (mat v72 n j) + mat v10 n j))
      (shapeCast_1ab_ab_apply v75 shapeCasts_S1x1x1024_S1x1024 (0 : Fin 1) n)
  have hden : (broadcastTo S1x256 (maximumf (shapeCast S1x1
          (multiReduction .add [1] S1 (shapeCast S1x1024 v75 shapeCasts_S1x1x1024_S1x1024) 0x00000000#32 reduces_S1x1024_S1 (.inl rfl) rfl)
          shapeCasts_S1_S1x1) (broadcast S1x1 (Scalar.ofBits (F := Ideal) .f32 0x3F800000#32))) broadcasts_S1x1_S1x256) (ix2 (0 : Fin 1) j)
      = max (∑ n : Fin 1024, v75 (ix3 (0 : Fin 1) (0 : Fin 1) n)) Gcn.one := by
    refine (Cert.RowReduce.broadcastTo_a1_ab_apply _ _ (0 : Fin 1) j).trans ?_
    refine congrArg (fun z => max z Gcn.one) ?_
    refine (Cert.RowReduce.shapeCast_a_a1_apply _ _ (0 : Fin 1) (0 : Fin 1)).trans ?_
    refine (Cert.RowReduce.multiReduction_add_row _ _ _ _ _ (0 : Fin 1)).trans ?_
    exact Finset.sum_congr rfl fun n _ => shapeCast_1ab_ab_apply v75 shapeCasts_S1x1x1024_S1x1024 (0 : Fin 1) n
  show Ideal.div _ _ = _
  rw [hnum, hden]
  rfl

end Cert.KernelIdeal.Layers

end
-- ==== Proof.KernelBodyValue.lean ====
/-
  One grid point's stored row, at the extended reals, is the network of the spec applied to the blocks it read.

  The four layers' weights and biases are slices of the stacked blocks: slice l of the weights reads the stack at
  (l, e, q), slice l of the biases reads it at (l, q).  With those, the payload lemmas chain: the input layer, the
  first graph layer times the second layer's weights, the remaining layers and the softmax weights, their row sums,
  and the masked mean.
-/
import proofs.«180856_j20255065768053_2_alg».proof.Proof.KernelPiece
import proofs.«180856_j20255065768053_2_alg».proof.Proof.KernelLayers

noncomputable section

namespace Cert.KernelIdeal.Body

open Idealize.ShloMosaic Idealize.ShloMosaic.ValueIdx Cert.KernelIdeal Cert.KernelIdeal.Gen Cert.KernelIdeal.Layers

/-! ## The slices of the stacked weights and biases -/

theorem wSlice0_apply (x5 : FVec Ideal S4x256x256 .bf16) (e q : Fin 256) :
    wSlice0 (F := Ideal) x5 (ix3 (0 : Fin 1) e q) = x5 (ix3 (0 : Fin 4) e q) := by
  unfold wSlice0
  refine congrArg x5 (funext fun a => Fin.ext ?_)
  match a with
  | ⟨0, _⟩ => rfl
  | ⟨1, _⟩ => show 0 + 1 * e.val = e.val; omega
  | ⟨2, _⟩ => show 0 + 1 * q.val = q.val; omega

theorem wSlice1_apply (x5 : FVec Ideal S4x256x256 .bf16) (e q : Fin 256) :
    wSlice1 (F := Ideal) x5 (ix3 (0 : Fin 1) e q) = x5 (ix3 (1 : Fin 4) e q) := by
  unfold wSlice1
  refine congrArg x5 (funext fun a => Fin.ext ?_)
  match a with
  | ⟨0, _⟩ => rfl
  | ⟨1, _⟩ => show 0 + 1 * e.val = e.val; omega
  | ⟨2, _⟩ => show 0 + 1 * q.val = q.val; omega

theorem wSlice2_apply (x5 : FVec Ideal S4x256x256 .bf16) (e q : Fin 256) :
    wSlice2 (F := Ideal) x5 (ix3 (0 : Fin 1) e q) = x5 (ix3 (2 : Fin 4) e q) := by
  unfold wSlice2
  refine congrArg x5 (funext fun a => Fin.ext ?_)
  match a with
  | ⟨0, _⟩ => rfl
  | ⟨1, _⟩ => show 0 + 1 * e.val = e.val; omega
  | ⟨2, _⟩ => show 0 + 1 * q.val = q.val; omega

theorem wSlice3_apply (x5 : FVec Ideal S4x256x256 .bf16) (e q : Fin 256) :
    wSlice3 (F := Ideal) x5 (ix3 (0 : Fin 1) e q) = x5 (ix3 (3 : Fin 4) e q) := by
  unfold wSlice3
  refine congrArg x5 (funext fun a => Fin.ext ?_)
  match a with
  | ⟨0, _⟩ => rfl
  | ⟨1, _⟩ => show 0 + 1 * e.val = e.val; omega
  | ⟨2, _⟩ => show 0 + 1 * q.val = q.val; omega

theorem bSlice0_apply (x6 : FVec Ideal S4x256 .f32) (q : Fin 256) :
    bSlice0 (F := Ideal) x6 (ix2 (0 : Fin 1) q) = x6 (ix2 (0 : Fin 4) q) := by
  unfold bSlice0
  refine congrArg x6 (funext fun a => Fin.ext ?_)
  match a with
  | ⟨0, _⟩ => rfl
  | ⟨1, _⟩ => show 0 + 1 * q.val = q.val; omega

theorem bSlice1_apply (x6 : FVec Ideal S4x256 .f32) (q : Fin 256) :
    bSlice1 (F := Ideal) x6 (ix2 (0 : Fin 1) q) = x6 (ix2 (1 : Fin 4) q) := by
  unfold bSlice1
  refine congrArg x6 (funext fun a => Fin.ext ?_)
  match a with
  | ⟨0, _⟩ => rfl
  | ⟨1, _⟩ => show 0 + 1 * q.val = q.val; omega

theorem bSlice2_apply (x6 : FVec Ideal S4x256 .f32) (q : Fin 256) :
    bSlice2 (F := Ideal) x6 (ix2 (0 : Fin 1) q) = x6 (ix2 (2 : Fin 4) q) := by
  unfold bSlice2
  refine congrArg x6 (funext fun a => Fin.ext ?_)
  match a with
  | ⟨0, _⟩ => rfl
  | ⟨1, _⟩ => show 0 + 1 * q.val = q.val; omega

theorem bSlice3_apply (x6 : FVec Ideal S4x256 .f32) (q : Fin 256) :
    bSlice3 (F := Ideal) x6 (ix2 (0 : Fin 1) q) = x6 (ix2 (3 : Fin 4) q) := by
  unfold bSlice3
  refine congrArg x6 (funext fun a => Fin.ext ?_)
  match a with
  | ⟨0, _⟩ => rfl
  | ⟨1, _⟩ => show 0 + 1 * q.val = q.val; omega

/-! ## The stored row -/

/-- Entry j of the row one grid point stores is the spec's network of the blocks it read. -/
theorem body_apply (x0 : FVec Ideal S1x1024x128 .bf16) (x1 : FVec Ideal S1x1024x1024 .bf16) (x2 : FVec Ideal S1x1x1024 .f32)
    (x3 : FVec Ideal S128x256 .bf16) (x4 : FVec Ideal S1x256 .f32) (x5 : FVec Ideal S4x256x256 .bf16)
    (x6 : FVec Ideal S4x256 .f32) (j : Fin 256) :
    body (F := Ideal) x0 x1 x2 x3 x4 x5 x6 (ix3 (0 : Fin 1) (0 : Fin 1) j)
      = Gcn.net (fun n e => x0 (ix3 (0 : Fin 1) n e)) (fun n k => x1 (ix3 (0 : Fin 1) n k))
          (fun n => x2 (ix3 (0 : Fin 1) (0 : Fin 1) n)) (fun e q => x3 (ix2 e q)) (fun q => x4 (ix2 (0 : Fin 1) q))
          (fun l e q => x5 (ix3 l e q)) (fun l q => x6 (ix2 l q)) j := by
  unfold body
  rw [pay1_apply, pay7_eq, pay6_eq, pay2_eq, pay3_eq, pay4_eq]
  unfold xw1
  rw [pay5_eq]
  simp only [wSlice0_apply, wSlice1_apply, wSlice2_apply, wSlice3_apply, bSlice0_apply, bSlice1_apply, bSlice2_apply,
    bSlice3_apply]
  rfl

end Cert.KernelIdeal.Body

end
-- ==== Proof.KernelBlocks.lean ====
/-
  Where each window's block sits in its array, at every grid point and at any admissible contents of the table.

  The grid has one axis of 64 points; point t works on sample t.  The features and adjacency windows pick the
  graph the table names for the sample: their block index is (table[t], 0, 0), so entry (0, n, e) of the block is
  entry (table[t], n, e) of the array.  The mask window and the output window move with the sample: block index
  (t, 0, 0).  The four weight windows are their whole arrays.  An element of a block sits, on each axis, at the
  block index times the block's size plus its own coordinate.
-/
import proofs.«180856_j20255065768053_2_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen

/-- The one coordinate of grid point t is t. -/
theorem coords_val : ∀ t : Fin grid0.N, (grid0.coords t 0).val = t.val := by decide +kernel

/-- A coordinate below 64 written as a 32-bit word reads back unchanged. -/
theorem ofNat_toNat (i : grid0.Coords) : (BitVec.ofNat 32 (i 0).val).toNat = (i 0).val := by
  have h : (i 0).val < 64 := (i 0).isLt
  rw [BitVec.toNat_ofNat]
  exact Nat.mod_eq_of_lt (by omega)

/-! ## The index maps -/

/-- The features window's block index at a point: the table's word for the sample, then zeros. -/
theorem transform_0_apply (pf : pre0.Contents (Elt Ideal)) (i : grid0.Coords) :
    cc0_transform_0 k0_off1_inb numel1_S1 pf i = ![(pf 0 (ix1 (i 0))).toNat, 0, 0] := by
  have e : pf.at 0 (Rect.unit (s := S64) ![(Scalar.indexCast (BitVec.ofNat 32 (i 0).val)).toNat] S1.size (k0_off1_inb i)) numel1_S1
      = pf 0 (ix1 (i 0)) := by
    refine congrArg (pf 0) (funext fun ax => Fin.ext ?_)
    match ax with
    | ⟨0, _⟩ =>
      show (BitVec.ofNat 32 (i 0).val).toNat + 1 * 0 = (i 0).val
      rw [ofNat_toNat]
      omega
  unfold cc0_transform_0
  dsimp only
  rw [e]
  rfl

/-- The adjacency window's: the same. -/
theorem transform_1_apply (pf : pre0.Contents (Elt Ideal)) (i : grid0.Coords) :
    cc0_transform_1 k0_off1_inb numel1_S1 pf i = ![(pf 0 (ix1 (i 0))).toNat, 0, 0] := by
  have e : pf.at 0 (Rect.unit (s := S64) ![(Scalar.indexCast (BitVec.ofNat 32 (i 0).val)).toNat] S1.size (k0_off1_inb i)) numel1_S1
      = pf 0 (ix1 (i 0)) := by
    refine congrArg (pf 0) (funext fun ax => Fin.ext ?_)
    match ax with
    | ⟨0, _⟩ =>
      show (BitVec.ofNat 32 (i 0).val).toNat + 1 * 0 = (i 0).val
      rw [ofNat_toNat]
      omega
  unfold cc0_transform_1
  dsimp only
  rw [e]
  rfl

/-- The mask window's: the sample, then zeros. -/
theorem transform_2_apply (i : grid0.Coords) : cc0_transform_2 i = ![(i 0).val, 0, 0] := by
  unfold cc0_transform_2
  dsimp only
  rw [ofNat_toNat]
  rfl

/-- The output window's: the sample, then zeros. -/
theorem transform_7_apply (i : grid0.Coords) : cc0_transform_7 i = ![(i 0).val, 0, 0] := by
  unfold cc0_transform_7
  dsimp only
  rw [ofNat_toNat]
  rfl

variable (a : (pcfg0 (F := Ideal)).Adm) (t : Fin (cfg0 a).N)

/-! ## The blocks, read through their arrays -/

/-- Features: entry (0, n, e) of the block is entry (g, n, e) of the array, g the table's word for the sample. -/
theorem read0 (f : S8x1024x128.Idx → EReal) (n : Fin 1024) (e : Fin 128) (g : Fin 8)
    (hg : (a.1 0 (ix1 (grid0.coords t 0))).toNat = g.val) :
    (((cfg0 a).win 0).blk t).view.read (Elt Ideal) f (ix3 (0 : Fin 1) n e) = f (ix3 g n e) := by
  show f _ = f _
  refine congrArg f (funext fun ax => Fin.ext ?_)
  refine (Pipeline.Window.rect_emb_val ((cfg0 a).win 0) t _ ax).trans ?_
  show cc0_transform_0 k0_off1_inb numel1_S1 a.1 (grid0.coords t) ax * S1x1024x128.size ax + ((ix3 (0 : Fin 1) n e) ax).val
    = ((ix3 g n e) ax).val
  rw [transform_0_apply]
  match ax with
  | ⟨0, _⟩ => show (a.1 0 (ix1 (grid0.coords t 0))).toNat * 1 + 0 = g.val; omega
  | ⟨1, _⟩ => show 0 * 1024 + n.val = n.val; omega
  | ⟨2, _⟩ => show 0 * 128 + e.val = e.val; omega

/-- Adjacency: the same, on [8, 1024, 1024]. -/
theorem read1 (f : S8x1024x1024.Idx → EReal) (n k : Fin 1024) (g : Fin 8)
    (hg : (a.1 0 (ix1 (grid0.coords t 0))).toNat = g.val) :
    (((cfg0 a).win 1).blk t).view.read (Elt Ideal) f (ix3 (0 : Fin 1) n k) = f (ix3 g n k) := by
  show f _ = f _
  refine congrArg f (funext fun ax => Fin.ext ?_)
  refine (Pipeline.Window.rect_emb_val ((cfg0 a).win 1) t _ ax).trans ?_
  show cc0_transform_1 k0_off1_inb numel1_S1 a.1 (grid0.coords t) ax * S1x1024x1024.size ax + ((ix3 (0 : Fin 1) n k) ax).val
    = ((ix3 g n k) ax).val
  rw [transform_1_apply]
  match ax with
  | ⟨0, _⟩ => show (a.1 0 (ix1 (grid0.coords t 0))).toNat * 1 + 0 = g.val; omega
  | ⟨1, _⟩ => show 0 * 1024 + n.val = n.val; omega
  | ⟨2, _⟩ => show 0 * 1024 + k.val = k.val; omega

/-- Mask: entry (0, 0, n) of the block is entry (sample, 0, n) of the array. -/
theorem read2 (f : S64x1x1024.Idx → EReal) (n : Fin 1024) :
    (((cfg0 a).win 2).blk t).view.read (Elt Ideal) f (ix3 (0 : Fin 1) (0 : Fin 1) n) = f (ix3 (grid0.coords t 0) (0 : Fin 1) n) := by
  show f _ = f _
  refine congrArg f (funext fun ax => Fin.ext ?_)
  refine (Pipeline.Window.rect_emb_val ((cfg0 a).win 2) t _ ax).trans ?_
  show cc0_transform_2 (grid0.coords t) ax * S1x1x1024.size ax + ((ix3 (0 : Fin 1) (0 : Fin 1) n) ax).val
    = ((ix3 (grid0.coords t 0) (0 : Fin 1) n) ax).val
  rw [transform_2_apply]
  match ax with
  | ⟨0, _⟩ => show (grid0.coords t 0).val * 1 + 0 = (grid0.coords t 0).val; omega
  | ⟨1, _⟩ => show 0 * 1 + 0 = 0; omega
  | ⟨2, _⟩ => show 0 * 1024 + n.val = n.val; omega

/-- The input weights' block is the whole array. -/
theorem read3 (f : S128x256.Idx → EReal) (y : S128x256.Idx) :
    (((cfg0 a).win 3).blk t).view.read (Elt Ideal) f y = f y := by
  show f _ = f _
  refine congrArg f (funext fun ax => Fin.ext ?_)
  refine (Pipeline.Window.rect_emb_val ((cfg0 a).win 3) t _ ax).trans ?_
  match ax with
  | ⟨0, _⟩ => show 0 * 128 + (y 0).val = (y 0).val; omega
  | ⟨1, _⟩ => show 0 * 256 + (y 1).val = (y 1).val; omega

/-- The input bias's block is the whole array. -/
theorem read4 (f : S1x256.Idx → EReal) (y : S1x256.Idx) :
    (((cfg0 a).win 4).blk t).view.read (Elt Ideal) f y = f y := by
  show f _ = f _
  refine congrArg f (funext fun ax => Fin.ext ?_)
  refine (Pipeline.Window.rect_emb_val ((cfg0 a).win 4) t _ ax).trans ?_
  match ax with
  | ⟨0, _⟩ => show 0 * 1 + (y 0).val = (y 0).val; omega
  | ⟨1, _⟩ => show 0 * 256 + (y 1).val = (y 1).val; omega

/-- The stacked weights' block is the whole array. -/
theorem read5 (f : S4x256x256.Idx → EReal) (y : S4x256x256.Idx) :
    (((cfg0 a).win 5).blk t).view.read (Elt Ideal) f y = f y := by
  show f _ = f _
  refine congrArg f (funext fun ax => Fin.ext ?_)
  refine (Pipeline.Window.rect_emb_val ((cfg0 a).win 5) t _ ax).trans ?_
  match ax with
  | ⟨0, _⟩ => show 0 * 4 + (y 0).val = (y 0).val; omega
  | ⟨1, _⟩ => show 0 * 256 + (y 1).val = (y 1).val; omega
  | ⟨2, _⟩ => show 0 * 256 + (y 2).val = (y 2).val; omega

/-- The stacked biases' block is the whole array. -/
theorem read6 (f : S4x256.Idx → EReal) (y : S4x256.Idx) :
    (((cfg0 a).win 6).blk t).view.read (Elt Ideal) f y = f y := by
  show f _ = f _
  refine congrArg f (funext fun ax => Fin.ext ?_)
  refine (Pipeline.Window.rect_emb_val ((cfg0 a).win 6) t _ ax).trans ?_
  match ax with
  | ⟨0, _⟩ => show 0 * 4 + (y 0).val = (y 0).val; omega
  | ⟨1, _⟩ => show 0 * 256 + (y 1).val = (y 1).val; omega

/-- Output: entry (0, 0, j) of the block is entry (sample, 0, j) of the array. -/
theorem read7 (f : S64x1x256.Idx → EReal) (j : Fin 256) :
    (((cfg0 a).win 7).blk t).view.read (Elt Ideal) f (ix3 (0 : Fin 1) (0 : Fin 1) j) = f (ix3 (grid0.coords t 0) (0 : Fin 1) j) := by
  show f _ = f _
  refine congrArg f (funext fun ax => Fin.ext ?_)
  refine (Pipeline.Window.rect_emb_val ((cfg0 a).win 7) t _ ax).trans ?_
  show cc0_transform_7 (grid0.coords t) ax * S1x1x256.size ax + ((ix3 (0 : Fin 1) (0 : Fin 1) j) ax).val
    = ((ix3 (grid0.coords t 0) (0 : Fin 1) j) ax).val
  rw [transform_7_apply]
  match ax with
  | ⟨0, _⟩ => show (grid0.coords t 0).val * 1 + 0 = (grid0.coords t 0).val; omega
  | ⟨1, _⟩ => show 0 * 1 + 0 = 0; omega
  | ⟨2, _⟩ => show 0 * 256 + j.val = j.val; omega

/-- Every index of the output array is an element of the block of the point its first coordinate names: it is the
    image of the block index (0, 0, its last coordinate). -/
theorem cover7 (i : S64x1x256.Idx) :
    ∃ t : Fin (cfg0 a).N, ((cfg0 a).win 7).flush t = true ∧ i ∈ (((cfg0 a).win 7).blk t).view.set := by
  have h0 : (i 0).val < 64 := (i 0).isLt
  have h1 : (i 1).val < 1 := (i 1).isLt
  refine ⟨⟨(i 0).val, h0⟩, flush0_7 a _, ?_⟩
  have hc : (grid0.coords (⟨(i 0).val, h0⟩ : Fin grid0.N) 0).val = (i 0).val := coords_val ⟨(i 0).val, h0⟩
  have e : (((cfg0 a).win 7).blk ⟨(i 0).val, h0⟩).view.emb (ix3 (0 : Fin 1) (0 : Fin 1) (i 2)) = i := by
    funext ax
    apply Fin.ext
    refine (Pipeline.Window.rect_emb_val ((cfg0 a).win 7) ⟨(i 0).val, h0⟩ _ ax).trans ?_
    show cc0_transform_7 (grid0.coords (⟨(i 0).val, h0⟩ : Fin grid0.N)) ax * S1x1x256.size ax
      + ((ix3 (0 : Fin 1) (0 : Fin 1) (i 2)) ax).val = (i ax).val
    rw [transform_7_apply]
    match ax with
    | ⟨0, _⟩ => show (grid0.coords (⟨(i 0).val, h0⟩ : Fin grid0.N) 0).val * 1 + 0 = (i 0).val; omega
    | ⟨1, _⟩ => show 0 * 1 + 0 = (i 1).val; omega
    | ⟨2, _⟩ => show 0 * 256 + (i 2).val = (i 2).val; omega
  have hm := (((cfg0 a).win 7).blk ⟨(i 0).val, h0⟩).view.emb_mem_set (ix3 (0 : Fin 1) (0 : Fin 1) (i 2))
  rwa [e] at hm

end Cert.KernelIdeal.Blocks

end
-- ==== Proof.KernelArrays.lean ====
/-
  What the kernel's windows' arrays hold when the kernel starts, over the extended reals.

  The host prefix rounds the features, the adjacency, the input weights and the layer weights to half precision — over
  the extended reals a rounding changes nothing —, turns the node mask into numbers and views it as [64, 1, 1024], and
  views the input bias as [1, 256].  A view of an array under another shape reads the entry at the same row-major
  position.
-/
import proofs.«180856_j20255065768053_2_alg».proof.Proof.Gen.KernelIdeal.Frame.Runs
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelIdeal.Arrays

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ)

/-! ## The two viewed arrays as the host operations' terms -/

theorem V_v4 (c : Dev nD) : Gen.V m c main_v4 =
    shapeCast S64x1x1024 (uitofp (F := Ideal) (s := S64x1024) .f32 (m ((c : Thread nD τ).loc main_arg1))) shapeCasts_S64x1024_S64x1x1024 := by
  dsimp only [Gen.V, Gen.V0]
  simp only [Gen.hostOps0, Gen.hostOps0_1, Gen.hostOps0_2, List.flatten_cons, List.flatten_nil, List.append_nil, List.cons_append, List.nil_append]
  after_results
  rfl

theorem V_v7 (c : Dev nD) : Gen.V m c main_v7 =
    shapeCast S1x256 (m ((c : Thread nD τ).loc main_arg5)) shapeCasts_S256_S1x256 := by
  dsimp only [Gen.V, Gen.V0]
  simp only [Gen.hostOps0, Gen.hostOps0_1, Gen.hostOps0_2, List.flatten_cons, List.flatten_nil, List.append_nil, List.cons_append, List.nil_append]
  after_results
  rfl

/-! ## Read at an index -/

/-- The features, rounded: unchanged. -/
theorem V_v1_apply (c : Dev nD) (i : S8x1024x128.Idx) : Gen.V m c main_v1 i = m ((c : Thread nD τ).loc main_arg2) i := by
  dsimp only [Gen.V, Gen.V0]
  simp only [Gen.hostOps0, Gen.hostOps0_1, Gen.hostOps0_2, List.flatten_cons, List.flatten_nil, List.append_nil, List.cons_append, List.nil_append]
  after_results
  rfl

/-- The adjacency, rounded: unchanged. -/
theorem V_v2_apply (c : Dev nD) (i : S8x1024x1024.Idx) : Gen.V m c main_v2 i = m ((c : Thread nD τ).loc main_arg3) i := by
  dsimp only [Gen.V, Gen.V0]
  simp only [Gen.hostOps0, Gen.hostOps0_1, Gen.hostOps0_2, List.flatten_cons, List.flatten_nil, List.append_nil, List.cons_append, List.nil_append]
  after_results
  rfl

/-- The mask as numbers, viewed as [64, 1, 1024]: entry (b, 0, n) is the number of mask bit (b, n). -/
theorem V_v4_apply (c : Dev nD) (b : Fin 64) (n : Fin 1024) :
    Gen.V m c main_v4 (ix3 b (0 : Fin 1) n) = FloatOps.uitofp (F := Ideal) .f32 (m ((c : Thread nD τ).loc main_arg1) (ix2 b n)) := by
  rw [V_v4]
  refine (shapeCast_apply _ _ (ix3 b (0 : Fin 1) n) (ix2 b n) ?_).trans rfl
  rw [Shape.rowMajor_val_two, Shape.rowMajor_val_three]
  show b.val * 1024 + n.val = (b.val * 1 + 0) * 1024 + n.val
  omega

/-- The input weights, rounded: unchanged. -/
theorem V_v5_apply (c : Dev nD) (i : S128x256.Idx) : Gen.V m c main_v5 i = m ((c : Thread nD τ).loc main_arg4) i := by
  dsimp only [Gen.V, Gen.V0]
  simp only [Gen.hostOps0, Gen.hostOps0_1, Gen.hostOps0_2, List.flatten_cons, List.flatten_nil, List.append_nil, List.cons_append, List.nil_append]
  after_results
  rfl

/-- The layer weights, rounded: unchanged. -/
theorem V_v6_apply (c : Dev nD) (i : S4x256x256.Idx) : Gen.V m c main_v6 i = m ((c : Thread nD τ).loc main_arg6) i := by
  dsimp only [Gen.V, Gen.V0]
  simp only [Gen.hostOps0, Gen.hostOps0_1, Gen.hostOps0_2, List.flatten_cons, List.flatten_nil, List.append_nil, List.cons_append, List.nil_append]
  after_results
  rfl

/-- The input bias viewed as [1, 256]: entry (0, q) is entry q. -/
theorem V_v7_apply (c : Dev nD) (q : Fin 256) :
    Gen.V m c main_v7 (ix2 (0 : Fin 1) q) = m ((c : Thread nD τ).loc main_arg5) (ix1 q) := by
  rw [V_v7]
  exact shapeCast_a_1a_apply _ _ (0 : Fin 1) q

end Cert.KernelIdeal.Arrays

end
-- ==== Proof.KernelValue.lean ====
/-
  The kernel program's result, as one array, is the specification's batch.

  At grid point t the body's stored row is the network of the blocks it read; the blocks are the sample's rows of
  the arrays the region finds: the graph the table names for sample t (features, adjacency), the sample's mask
  row, and the whole weight arrays.  The table's word for sample t is the graph id kept inside [0, 7], the graph
  the specification names.  The arrays the region finds are the arguments themselves (the host prefix only changes
  float formats, which is the identity on the extended reals, turns the mask into floats, and adds unit axes).
  So block t of the region's output is row t of the specification; the 64 blocks tile the output, and the line
  after the region drops the unit axis.
-/
import proofs.«180856_j20255065768053_2_alg».proof.Proof.Gen.KernelIdeal.Frame
import proofs.«180856_j20255065768053_2_alg».proof.Proof.KernelIdealTable
import proofs.«180856_j20255065768053_2_alg».proof.Proof.KernelBodyValue
import proofs.«180856_j20255065768053_2_alg».proof.Proof.KernelBlocks
import proofs.«180856_j20255065768053_2_alg».proof.Proof.KernelArrays
import proofs.«180856_j20255065768053_2_alg».proof.Proof.GcnSpec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- The specification's batch of the argument arrays on core c. -/
def outOf (c : Dev nD) : Fin 64 → Fin 256 → EReal :=
  Gcn.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The region's output array, [64, 1, 256]: row b holds the specification's row b. -/
def G8 (c : Dev nD) : S64x1x256.Idx → EReal := fun i => outOf m c (i 0) (i 2)

/-- Two rows [1, 1, 256] that agree at every (0, 0, j) are equal. -/
theorem ext_row {f g : S1x1x256.Idx → EReal}
    (h : ∀ j : Fin 256, f (ix3 (0 : Fin 1) (0 : Fin 1) j) = g (ix3 (0 : Fin 1) (0 : Fin 1) j)) : f = g := by
  funext y
  have h0 : (y 0).val < 1 := (y 0).isLt
  have h1 : (y 1).val < 1 := (y 1).isLt
  have e : y = ix3 (0 : Fin 1) (0 : Fin 1) (y 2) := funext fun ax => Fin.ext (by
    match ax with
    | ⟨0, _⟩ => show (y 0).val = 0; omega
    | ⟨1, _⟩ => show (y 1).val = 0; omega
    | ⟨2, _⟩ => rfl)
  rw [e]
  exact h _

/-- The network is a function of its seven arguments. -/
theorem net_congr {a f h : ℕ} {xs xs' : Fin a → Fin f → EReal} {A A' : Fin a → Fin a → EReal} {msk msk' : Fin a → EReal}
    {Win Win' : Fin f → Fin h → EReal} {bin bin' : Fin h → EReal} {Ws Ws' : Fin 4 → Fin h → Fin h → EReal}
    {bs bs' : Fin 4 → Fin h → EReal} (e0 : xs = xs') (e1 : A = A') (e2 : msk = msk') (e3 : Win = Win') (e4 : bin = bin')
    (e5 : Ws = Ws') (e6 : bs = bs') : Gcn.net xs A msk Win bin Ws bs = Gcn.net xs' A' msk' Win' bin' Ws' bs' := by
  subst e0 e1 e2 e3 e4 e5 e6
  rfl

/-- WHAT POINT t WRITES BACK is block t of the specification's array. -/
theorem flushed_eq (c : Dev nD) (t : Fin (cfgM m (Tbl.ok m)).N) :
    (dats m (Tbl.ok m) 0 c).flushed 7 t = (((cfgM m (Tbl.ok m)).win 7).blk t).view.read (Elt Ideal) (G8 m c) := by
  obtain rfl : c = 0 := Subsingleton.elim _ _
  show ((cfgM m (Tbl.ok m)).win 7).cut ((cfgM m (Tbl.ok m)).grid.coords t) ((dats m (Tbl.ok m) 0 0).after 7 t) = _
  rw [after0_7]
  unfold outsAt0
  have hb := Body.out_eq_body (F := Ideal) 0 (grid0.coords t) (ms0_0 m (Tbl.ok m) t) (hs0_0 m (Tbl.ok m) t)
    (ms0_1 m (Tbl.ok m) t) (hs0_1 m (Tbl.ok m) t) (ms0_2 m (Tbl.ok m) t) (hs0_2 m (Tbl.ok m) t) (ms0_3 m (Tbl.ok m) t)
    (hs0_3 m (Tbl.ok m) t) (ms0_4 m (Tbl.ok m) t) (hs0_4 m (Tbl.ok m) t) (ms0_5 m (Tbl.ok m) t) (hs0_5 m (Tbl.ok m) t)
    (ms0_6 m (Tbl.ok m) t) (hs0_6 m (Tbl.ok m) t) (ms0_7 m (Tbl.ok m) t) (hs0_7 m (Tbl.ok m) t)
    (iblk m (Tbl.ok m) 0 0 t) (iblk m (Tbl.ok m) 0 1 t) (iblk m (Tbl.ok m) 0 2 t) (iblk m (Tbl.ok m) 0 3 t)
    (iblk m (Tbl.ok m) 0 4 t) (iblk m (Tbl.ok m) 0 5 t) (iblk m (Tbl.ok m) 0 6 t) (tbl m 0)
  refine (congrArg (((cfgM m (Tbl.ok m)).win 7).cut ((cfgM m (Tbl.ok m)).grid.coords t)) hb).trans ?_
  refine ext_row fun j => ?_
  refine Eq.trans ?_ (Blocks.read7 (adm m (Tbl.ok m)) t (G8 m 0) j).symm
  refine (Body.body_apply _ _ _ _ _ _ _ j).trans ?_
  have e0 : (fun (n : Fin 1024) (e : Fin 128) => iblk m (Tbl.ok m) 0 0 t (ix3 (0 : Fin 1) n e))
      = fun n e => m (((0 : Dev nD) : Thread nD τ).loc main_arg2) (ix3 (Gcn.gid (m (((0 : Dev nD) : Thread nD τ).loc main_arg0)) (grid0.coords t 0)) n e) :=
    funext fun n => funext fun e =>
      (Blocks.read0 (adm m (Tbl.ok m)) t (V m 0 main_v1) n e _ (Tbl.tbl_toNat_eq m (grid0.coords t 0))).trans (Arrays.V_v1_apply m 0 _)
  have e1 : (fun (n k : Fin 1024) => iblk m (Tbl.ok m) 0 1 t (ix3 (0 : Fin 1) n k))
      = fun n k => m (((0 : Dev nD) : Thread nD τ).loc main_arg3) (ix3 (Gcn.gid (m (((0 : Dev nD) : Thread nD τ).loc main_arg0)) (grid0.coords t 0)) n k) :=
    funext fun n => funext fun k =>
      (Blocks.read1 (adm m (Tbl.ok m)) t (V m 0 main_v2) n k _ (Tbl.tbl_toNat_eq m (grid0.coords t 0))).trans (Arrays.V_v2_apply m 0 _)
  have e2 : (fun (n : Fin 1024) => iblk m (Tbl.ok m) 0 2 t (ix3 (0 : Fin 1) (0 : Fin 1) n))
      = fun n => FloatOps.uitofp (F := Ideal) .f32 (m (((0 : Dev nD) : Thread nD τ).loc main_arg1) (ix2 (grid0.coords t 0) n)) :=
    funext fun n => (Blocks.read2 (adm m (Tbl.ok m)) t (V m 0 main_v4) n).trans (Arrays.V_v4_apply m 0 _ n)
  have e3 : (fun (e : Fin 128) (q : Fin 256) => iblk m (Tbl.ok m) 0 3 t (ix2 e q))
      = fun e q => m (((0 : Dev nD) : Thread nD τ).loc main_arg4) (ix2 e q) :=
    funext fun e => funext fun q => (Blocks.read3 (adm m (Tbl.ok m)) t (V m 0 main_v5) (ix2 e q)).trans (Arrays.V_v5_apply m 0 _)
  have e4 : (fun (q : Fin 256) => iblk m (Tbl.ok m) 0 4 t (ix2 (0 : Fin 1) q))
      = fun q => m (((0 : Dev nD) : Thread nD τ).loc main_arg5) (ix1 q) :=
    funext fun q => (Blocks.read4 (adm m (Tbl.ok m)) t (V m 0 main_v7) (ix2 (0 : Fin 1) q)).trans (Arrays.V_v7_apply m 0 q)
  have e5 : (fun (l : Fin 4) (e q : Fin 256) => iblk m (Tbl.ok m) 0 5 t (ix3 l e q))
      = fun l e q => m (((0 : Dev nD) : Thread nD τ).loc main_arg6) (ix3 l e q) :=
    funext fun l => funext fun e => funext fun q =>
      (Blocks.read5 (adm m (Tbl.ok m)) t (V m 0 main_v6) (ix3 l e q)).trans (Arrays.V_v6_apply m 0 _)
  have e6 : (fun (l : Fin 4) (q : Fin 256) => iblk m (Tbl.ok m) 0 6 t (ix2 l q))
      = fun l q => m (((0 : Dev nD) : Thread nD τ).loc main_arg7) (ix2 l q) :=
    funext fun l => funext fun q =>
      (Blocks.read6 (adm m (Tbl.ok m)) t (V m 0 main_arg7) (ix2 l q)).trans (congrFun (V_main_arg7 m 0) _)
  exact congrFun (net_congr e0 e1 e2 e3 e4 e5 e6) j

/-- The region's output array ends holding the specification's rows. -/
theorem final (c : Dev nD) : (dats m (Tbl.ok m) 0 c).arrAt 7 (cfgM m (Tbl.ok m)).N = G8 m c :=
  (dats m (Tbl.ok m) 0 c).arrAt_eq_of_cover 7 (G8 m c) (fun t _ => flushed_eq m c t) (Blocks.cover7 (adm m (Tbl.ok m)))

end Cert.KernelIdeal.Value

end
-- ==== Proof.KernelRun.lean ====
/-
  The kernel program's run with its result named: every fair execution ends with the result array holding the
  specification's batch and the argument arrays unchanged.

  The line after the region reshapes the region's [64, 1, 256] output to [64, 256]: entry (b, j) reads (b, 0, j).
-/
import proofs.«180856_j20255065768053_2_alg».proof.Proof.KernelValue

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- The specification's batch as the result array [64, 256] on core c. -/
def resultOf (c : Dev nD) : S64x256.Idx → EReal :=
  Gcn.outArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- After the line that follows the region, the result buffer holds the specification's batch. -/
theorem tail_eq (c : Dev nD) :
    Pipeline.afterTail pcfgs (fun _ => adm m (Tbl.ok m)) (dats m (Tbl.ok m)) 0 (V0 m) [hostOps1] c main_v9 = resultOf m c := by
  unfold Pipeline.afterTail
  show StableHlo.after hostOps1 _ (Proc.devRef .tc main_v9) = _
  after_results
  have hA : Pipeline.withArrays (Pipeline.pin pcfgs (fun _ => adm m (Tbl.ok m)) 0).spec c (V0 m c)
      (fun w => (dats m (Tbl.ok m) 0 c).arrAt w (Pipeline.pin pcfgs (fun _ => adm m (Tbl.ok m)) 0).N) (Proc.devRef .tc main_v8)
        = G8 m c :=
    (Pipeline.withArrays_arr spec0 winFacts0.arr_inj c _ _ 7).trans (final m c)
  rw [hA]
  funext i
  obtain ⟨b, j, rfl⟩ : ∃ (b : Fin 64) (j : Fin 256), i = ix2 b j := ⟨i 0, i 1, eq_ix2 i⟩
  show shapeCast S64x256 (G8 m c) shapeCasts_S64x1x256_S64x256 (ix2 b j) = _
  refine (shapeCast_apply (G8 m c) shapeCasts_S64x1x256_S64x256 (ix2 b j) (ix3 b (0 : Fin 1) j) ?_).trans ?_
  · rw [Shape.rowMajor_val_three, Shape.rowMajor_val_two]
    show (b.val * 1 + 0) * 256 + j.val = b.val * 256 + j.val
    omega
  · rfl

/-- THE KERNEL PROGRAM'S RUN with its result named: every fair execution terminates with the result array holding
    the specification's batch of the arguments, and the arguments as they were. -/
theorem run :
    θ_run (defs (F := Ideal)) (onTc (τ := τ) (main (F := Ideal))) ⟨m, fun _ => 0, ρ⟩ (fun r => ∀ c : Dev nD,
      r.2.mem ((c.tc : Thread nD τ).loc main_v9) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v9 (by decide : main_v9 ∈ Pipeline.restRefs sig spec0)).trans (tail_eq m c),
      ((h c).2 main_arg0 (by decide : main_arg0 ∈ Pipeline.restRefs sig spec0)).trans (W_main_arg0 m (Tbl.ok m) (dats m (Tbl.ok m)) c),
      ((h c).2 main_arg1 (by decide : main_arg1 ∈ Pipeline.restRefs sig spec0)).trans (W_main_arg1 m (Tbl.ok m) (dats m (Tbl.ok m)) c),
      ((h c).2 main_arg2 (by decide : main_arg2 ∈ Pipeline.restRefs sig spec0)).trans (W_main_arg2 m (Tbl.ok m) (dats m (Tbl.ok m)) c),
      ((h c).2 main_arg3 (by decide : main_arg3 ∈ Pipeline.restRefs sig spec0)).trans (W_main_arg3 m (Tbl.ok m) (dats m (Tbl.ok m)) c),
      ((h c).2 main_arg4 (by decide : main_arg4 ∈ Pipeline.restRefs sig spec0)).trans (W_main_arg4 m (Tbl.ok m) (dats m (Tbl.ok m)) c),
      ((h c).2 main_arg5 (by decide : main_arg5 ∈ Pipeline.restRefs sig spec0)).trans (W_main_arg5 m (Tbl.ok m) (dats m (Tbl.ok m)) c),
      ((h c).2 main_arg6 (by decide : main_arg6 ∈ Pipeline.restRefs sig spec0)).trans (W_main_arg6 m (Tbl.ok m) (dats m (Tbl.ok m)) c),
      ((h c).1 6).trans ((((dats m (Tbl.ok m)) 0 c).arrAt_in 6 rfl _).trans ((A_eq m (Tbl.ok m) c 6).trans (V_main_arg7 m c)))⟩)
    (run_main m ρ (Tbl.ok m))

end Cert.KernelIdeal.Value

end
-- ==== Proof.LibGatherSlab.lean ====
/-
  A table of slabs gathered by one index per sample, read at an index.

  The table has `G` slabs of `N` by `E` entries; the start indices are a column `[B, 1]` of integers, one per sample.
  The gather takes, for sample `b`, the whole slab the sample's integer names: the first axis of the table is the
  collapsed one, indexed by the start index, and the other two axes are copied (slice sizes `[1, N, E]`, offset axes 1
  and 2 of the result).  As with every gather the start index is read signed and kept inside `[0, G - 1]`.  So entry
  `(b, n, e)` of the result is entry `(min idx[b, 0] (G - 1), n, e)` of the table.
-/
import Idealize.ShloMosaic.PureOps
import Idealize.ShloMosaic.Lib.ValueIdx

noncomputable section

namespace Cert.GatherSlab

open Idealize.ShloMosaic Idealize.ShloMosaic.ValueIdx

variable {α : Type}

/-- The dimension numbers of a gather of whole slabs: operand `[G, N, E]`, start indices `[B, 1]`, result `[B, N, E]`. -/
abbrev slabDims (G N E B : Nat)
    (wf : GatherDims.WF ⟨3, ![G, N, E]⟩ ⟨2, ![B, 1]⟩ ⟨3, ![B, N, E]⟩ [1, 2] [0] [] [0] [] 1 ![1, N, E]) :
    GatherDims ⟨3, ![G, N, E]⟩ ⟨2, ![B, 1]⟩ ⟨3, ![B, N, E]⟩ where
  offsetDims := [1, 2]
  collapsedSliceDims := [0]
  operandBatchingDims := []
  startIndicesBatchingDims := []
  startIndexMap := [0]
  indexVectorDim := 1
  sliceSizes := ![1, N, E]
  wf := wf

/-- The gather of whole slabs read at `(b, n, e)`: the table at the slab the start index `idx[b, 0]` names (read signed and
    kept inside `[0, G - 1]`), at `(n, e)`. -/
theorem gather_slab_apply {G N E B w : Nat} (hG : 0 < G)
    (wf : GatherDims.WF ⟨3, ![G, N, E]⟩ ⟨2, ![B, 1]⟩ ⟨3, ![B, N, E]⟩ [1, 2] [0] [] [0] [] 1 ![1, N, E])
    (x : (⟨3, ![G, N, E]⟩ : Shape).Idx → α) (idx : IVec ⟨2, ![B, 1]⟩ w) (b : Fin B) (n : Fin N) (e : Fin E) :
    Host.gather (slabDims G N E B wf) x idx (ix3 b n e)
      = x (ix3 ⟨min (idx (ix2 b (0 : Fin 1))).toInt.toNat (G - 1), by omega⟩ n e) := by
  have hs0 : ∀ h : 0 < 3, (⟨0, h⟩ : Fin 3) ∈ (slabDims G N E B wf).startIndexMap :=
    fun _ => List.mem_singleton.mpr rfl
  have hs1 : ∀ h : 1 < 3, ¬ (⟨1, h⟩ : Fin 3) ∈ (slabDims G N E B wf).startIndexMap :=
    fun _ hm => absurd (congrArg Fin.val (List.mem_singleton.mp hm)) (show ¬ (1 : Nat) = 0 by decide)
  have hs2 : ∀ h : 2 < 3, ¬ (⟨2, h⟩ : Fin 3) ∈ (slabDims G N E B wf).startIndexMap :=
    fun _ hm => absurd (congrArg Fin.val (List.mem_singleton.mp hm)) (show ¬ (2 : Nat) = 0 by decide)
  have hc0 : ∀ h : 0 < 3, ¬ (⟨0, h⟩ : Fin 3) ∈ (slabDims G N E B wf).sKept :=
    fun _ hm => ((GatherDims.mem_sKept _ _).mp hm).1 (List.mem_singleton.mpr rfl)
  have hk1 : ∀ h : 1 < 3, (⟨1, h⟩ : Fin 3) ∈ (slabDims G N E B wf).sKept :=
    fun _ => (GatherDims.mem_sKept _ _).mpr ⟨fun hm => absurd (congrArg Fin.val (List.mem_singleton.mp hm)) (show ¬ (1 : Nat) = 0 by decide), List.not_mem_nil⟩
  have hk2 : ∀ h : 2 < 3, (⟨2, h⟩ : Fin 3) ∈ (slabDims G N E B wf).sKept :=
    fun _ => (GatherDims.mem_sKept _ _).mpr ⟨fun hm => absurd (congrArg Fin.val (List.mem_singleton.mp hm)) (show ¬ (2 : Nat) = 0 by decide), List.not_mem_nil⟩
  unfold Host.gather
  refine congrArg x (funext fun a => Fin.ext ?_)
  show (slabDims G N E B wf).start (ix3 b n e) idx a + (slabDims G N E B wf).batchCoord (ix3 b n e) a
      + (slabDims G N E B wf).offCoord (ix3 b n e) a = _
  rw [GatherDims.batchCoord_eq_zero _ _ _ List.not_mem_nil, Nat.add_zero]
  match a with
  | ⟨0, h0⟩ =>
    rw [GatherDims.offCoord_eq_zero _ _ _ (hc0 h0), Nat.add_zero]
    unfold GatherDims.start
    rw [dif_pos (hs0 h0)]
    have hsi : (slabDims G N E B wf).siIdx (ix3 b n e) ⟨List.idxOf (⟨0, h0⟩ : Fin 3) (slabDims G N E B wf).startIndexMap,
        List.idxOf_lt_length_iff.2 (hs0 h0)⟩ = ix2 b (0 : Fin 1) := by
      funext c; refine Fin.ext ?_
      match c with
      | ⟨0, _⟩ => rfl
      | ⟨1, _⟩ => rfl
    rw [hsi]
    rfl
  | ⟨1, h1⟩ =>
    unfold GatherDims.start
    rw [dif_neg (hs1 h1), Nat.zero_add]
    unfold GatherDims.offCoord
    rw [dif_pos (hk1 h1)]
    rfl
  | ⟨2, h2⟩ =>
    unfold GatherDims.start
    rw [dif_neg (hs2 h2), Nat.zero_add]
    unfold GatherDims.offCoord
    rw [dif_pos (hk2 h2)]
    rfl

end Cert.GatherSlab

end
-- ==== Proof.RefValue.lean ====
/-
  The reference program's result is the specification function.

  The reference program gathers each sample's node features and adjacency matrix from the two tables by the sample's
  graph id, applies the input layer and the four graph layers, the row softmax, adds the input layer's output back and
  takes the masked mean over the nodes.  Each of its operations is read at an index and matched with the corresponding
  step of the specification: the gathers read the table at the graph id (the id, taken non-negative, passes the
  "add 8 if negative" selection unchanged, and the gather keeps it inside [0, 7]); a contraction is the sum that defines a
  matrix product; the row maximum is the fold of max from -inf; a float sum is the zero word plus the sum, and the zero
  word is 0; the masked sum multiplies value by mask where the specification multiplies mask by value.
-/
import proofs.«180856_j20255065768053_2_alg».proof.Proof.Gen.ReferenceIdeal.Read
import proofs.«180856_j20255065768053_2_alg».proof.Proof.GcnSpec
import proofs.«180856_j20255065768053_2_alg».proof.Proof.LibRowReduce
import proofs.«180856_j20255065768053_2_alg».proof.Proof.LibGatherSlab

noncomputable section

namespace Cert.RefSide

open Cert.ReferenceIdeal Cert.ReferenceIdeal.Gen Cert.ReferenceIdeal.Read Idealize.ShloMosaic Idealize.ShloMosaic.ValueIdx

/-! ## Words -/

/-- A signed comparison "below zero" of a non-negative integer answers the bit 0. -/
theorem cmpi_slt_zero_of_nonneg (v : BitVec 32) (h : 0 ≤ v.toInt) : IntOp.cmpi .slt v 0#32 = 0#1 := by
  have hs : v.slt 0#32 = false := by
    rw [BitVec.slt_eq_decide, BitVec.toInt_zero]
    exact decide_eq_false (by omega)
  show BitVec.ofBool (v.slt 0#32) = 0#1
  rw [hs]
  rfl

/-- The zero word in front of a sum adds nothing. -/
theorem zeroWord_add (s : EReal) : FloatOps.ofBits (F := Ideal) .f32 0x00000000#32 + s = s := by
  show Ideal.ofBits .f32 0x00000000#32 + s = s
  rw [Ideal.ofBits_zero_f32, zero_add]

/-! ## The arguments as the specification reads them -/

section
variable (x0 : (⟨S64, .i32⟩ : BufTy).Contents (Elt Ideal)) (x1 : (⟨S64x1024, .i1⟩ : BufTy).Contents (Elt Ideal))
  (x2 : (⟨S8x1024x128, .f32⟩ : BufTy).Contents (Elt Ideal)) (x3 : (⟨S8x1024x1024, .f32⟩ : BufTy).Contents (Elt Ideal))
  (x4 : (⟨S128x256, .f32⟩ : BufTy).Contents (Elt Ideal)) (x5 : (⟨S256, .f32⟩ : BufTy).Contents (Elt Ideal))
  (x6 : (⟨S4x256x256, .f32⟩ : BufTy).Contents (Elt Ideal)) (x7 : (⟨S4x256, .f32⟩ : BufTy).Contents (Elt Ideal))

/-- Sample `b`'s node features: the features table at the sample's graph. -/
abbrev feat (b : Fin 64) : Fin 1024 → Fin 128 → EReal := fun n e => x2 (ix3 (Cert.Gcn.gid x0 b) n e)
/-- Sample `b`'s adjacency matrix: the adjacency table at the sample's graph. -/
abbrev adjm (b : Fin 64) : Fin 1024 → Fin 1024 → EReal := fun n m => x3 (ix3 (Cert.Gcn.gid x0 b) n m)
/-- Sample `b`'s node mask as numbers. -/
abbrev mskv (b : Fin 64) : Fin 1024 → EReal := fun n => FloatOps.uitofp (F := Ideal) .f32 (x1 (ix2 b n))
/-- The input layer's weights and bias, the graph layers' weights and biases. -/
abbrev winm : Fin 128 → Fin 256 → EReal := fun e q => x4 (ix2 e q)
abbrev binv : Fin 256 → EReal := fun q => x5 (ix1 q)
abbrev wsm : Fin 4 → Fin 256 → Fin 256 → EReal := fun l e q => x6 (ix3 l e q)
abbrev bsv : Fin 4 → Fin 256 → EReal := fun l q => x7 (ix2 l q)

/-- The stages of the specification for sample `b`: the input layer, the three rectified graph layers, the logits. -/
abbrev st0 (b : Fin 64) : Fin 1024 → Fin 256 → EReal := Cert.Gcn.inputLayer (feat x0 x2 b) (winm x4) (binv x5)
abbrev st1 (b : Fin 64) : Fin 1024 → Fin 256 → EReal :=
  Cert.Gcn.relu (Cert.Gcn.layer (adjm x0 x3 b) (st0 x0 x2 x4 x5 b) (wsm x6 0) (bsv x7 0))
abbrev st2 (b : Fin 64) : Fin 1024 → Fin 256 → EReal :=
  Cert.Gcn.relu (Cert.Gcn.layer (adjm x0 x3 b) (st1 x0 x2 x3 x4 x5 x6 x7 b) (wsm x6 1) (bsv x7 1))
abbrev st3 (b : Fin 64) : Fin 1024 → Fin 256 → EReal :=
  Cert.Gcn.relu (Cert.Gcn.layer (adjm x0 x3 b) (st2 x0 x2 x3 x4 x5 x6 x7 b) (wsm x6 2) (bsv x7 2))
abbrev lgt (b : Fin 64) : Fin 1024 → Fin 256 → EReal :=
  Cert.Gcn.layer (adjm x0 x3 b) (st3 x0 x2 x3 x4 x5 x6 x7 b) (wsm x6 3) (bsv x7 3)

/-! ## The graph id and the two gathers -/

/-- The index column handed to the gathers is the graph id itself when the id is not negative. -/
theorem v5_at (b : Fin 64) (h : 0 ≤ (x0 (ix1 b)).toInt) :
    val_main_v5 (F := Ideal) x0 (ix2 b (0 : Fin 1)) = x0 (ix1 b) := by
  have e : idx_main_v5 (ix2 b (0 : Fin 1)) = ix1 b := funext fun a => Fin.ext (by match a with | ⟨0, _⟩ => rfl)
  rw [val_main_v5_apply, val_main_v4_apply, val_main_v1_apply, val_main_v0_apply, val_main_c_apply, e,
    cmpi_slt_zero_of_nonneg _ h]
  exact select_zero _ _

/-- The same for the second copy of the index column. -/
theorem v12_at (b : Fin 64) (h : 0 ≤ (x0 (ix1 b)).toInt) :
    val_main_v12 (F := Ideal) x0 (ix2 b (0 : Fin 1)) = x0 (ix1 b) := by
  have e : idx_main_v12 (ix2 b (0 : Fin 1)) = ix1 b := funext fun a => Fin.ext (by match a with | ⟨0, _⟩ => rfl)
  rw [val_main_v12_apply, val_main_v11_apply, val_main_v8_apply, val_main_v7_apply, val_main_c_1_apply, e,
    cmpi_slt_zero_of_nonneg _ h]
  exact select_zero _ _

/-- The gathered features at `(b, n, e)`: the features table at sample `b`'s graph. -/
theorem v6_at (hdom : ∀ b : Fin 64, 0 ≤ (x0 (ix1 b)).toInt ∧ (x0 (ix1 b)).toInt < 8) (b : Fin 64) (n : Fin 1024) (e : Fin 128) :
    val_main_v6 (F := Ideal) x0 x2 (ix3 b n e) = x2 (ix3 (Cert.Gcn.gid x0 b) n e) := by
  unfold val_main_v6
  refine (Cert.GatherSlab.gather_slab_apply (G := 8) (N := 1024) (E := 128) (B := 64) (by decide)
    Facts₀.gather_S8x1024x128_S64x1_S64x1024x128_12_0_n_n_0_1_11024128_wf x2 (val_main_v5 (F := Ideal) x0) b n e).trans ?_
  refine congrArg (fun g : Fin 8 => x2 (ix3 g n e)) (Fin.ext ?_)
  show min (val_main_v5 (F := Ideal) x0 (ix2 b (0 : Fin 1))).toInt.toNat (8 - 1) = min (x0 (ix1 b)).toInt.toNat 7
  rw [v5_at x0 b (hdom b).1]

/-- The gathered adjacency at `(b, n, m)`: the adjacency table at sample `b`'s graph. -/
theorem v13_at (hdom : ∀ b : Fin 64, 0 ≤ (x0 (ix1 b)).toInt ∧ (x0 (ix1 b)).toInt < 8) (b : Fin 64) (n m : Fin 1024) :
    val_main_v13 (F := Ideal) x0 x3 (ix3 b n m) = x3 (ix3 (Cert.Gcn.gid x0 b) n m) := by
  unfold val_main_v13
  refine (Cert.GatherSlab.gather_slab_apply (G := 8) (N := 1024) (E := 1024) (B := 64) (by decide)
    Facts₀.gather_S8x1024x1024_S64x1_S64x1024x1024_12_0_n_n_0_1_110241024_wf x3 (val_main_v12 (F := Ideal) x0) b n m).trans ?_
  refine congrArg (fun g : Fin 8 => x3 (ix3 g n m)) (Fin.ext ?_)
  show min (val_main_v12 (F := Ideal) x0 (ix2 b (0 : Fin 1))).toInt.toNat (8 - 1) = min (x0 (ix1 b)).toInt.toNat 7
  rw [v12_at x0 b (hdom b).1]

/-! ## The input layer -/

/-- The input layer at `(b, n, j)`. -/
theorem v18_at (hdom : ∀ b : Fin 64, 0 ≤ (x0 (ix1 b)).toInt ∧ (x0 (ix1 b)).toInt < 8) (b : Fin 64) (n : Fin 1024) (j : Fin 256) :
    val_main_v18 (F := Ideal) x0 x2 x4 x5 (ix3 b n j) = st0 x0 x2 x4 x5 b n j := by
  have e5 : idx_main_v15 (idx_main_v16 (ix3 b n j)) = ix1 j := funext fun a => Fin.ext (by match a with | ⟨0, _⟩ => rfl)
  have es : ∀ k : Fin 128, val_main_v6 (F := Ideal) x0 x2 (lidx_main_v14 (ix3 b n j) k) * x4 (ridx_main_v14 (ix3 b n j) k)
      = x2 (ix3 (Cert.Gcn.gid x0 b) n k) * x4 (ix2 k j) := fun k => by
    have el : lidx_main_v14 (ix3 b n j) k = ix3 b n k :=
      funext fun a => Fin.ext (by match a with | ⟨0, _⟩ => rfl | ⟨1, _⟩ => rfl | ⟨2, _⟩ => rfl)
    have er : ridx_main_v14 (ix3 b n j) k = ix2 k j :=
      funext fun a => Fin.ext (by match a with | ⟨0, _⟩ => rfl | ⟨1, _⟩ => rfl)
    rw [el, er, v6_at x0 x2 hdom]
  rw [val_main_v18_apply, val_main_v17_apply, val_main_v14_apply, val_main_call0_v0_apply, val_main_call0_cst_apply,
    val_main_v16_apply, val_main_v15_apply, e5, Finset.sum_congr rfl fun k _ => es k]
  rfl

/-! ## One graph layer, stated once over the stages it reads -/

/-- A graph layer read at `(b, n, j)`.  `P` is the stage it starts from, `Wm` its weight matrix, `D1 = P · Wm` row by row,
    `D2 = Adj · D1` sample by sample, `R = D2 + Bc` with `Bc` the bias spread over samples and nodes.  When each of
    these arrays reads, at an index given by its coordinates, the corresponding function of the specification, `R` reads
    the specification's layer. -/
theorem layer_at (Adj : (⟨S64x1024x1024, .f32⟩ : BufTy).Contents (Elt Ideal)) (P D1 D2 Bc R : (⟨S64x1024x256, .f32⟩ : BufTy).Contents (Elt Ideal))
    (Wm : (⟨S256x256, .f32⟩ : BufTy).Contents (Elt Ideal))
    (h1 : ∀ i, D1 i = ∑ k : Fin 256, P (lidx_main_v21 i k) * Wm (ridx_main_v21 i k))
    (h2 : ∀ i, D2 i = ∑ k : Fin 1024, Adj (lidx_main_v22 i k) * D1 (ridx_main_v22 i k))
    (h3 : ∀ i, R i = FloatOps.addf (F := Ideal) (φ := .f32) (D2 i) (Bc i))
    (A : Fin 64 → Fin 1024 → Fin 1024 → EReal) (X : Fin 64 → Fin 1024 → Fin 256 → EReal)
    (W : Fin 256 → Fin 256 → EReal) (bv : Fin 256 → EReal)
    (hA : ∀ b n m, Adj (ix3 b n m) = A b n m) (hP : ∀ b n k, P (ix3 b n k) = X b n k)
    (hW : ∀ k j, Wm (ix2 k j) = W k j) (hB : ∀ b n j, Bc (ix3 b n j) = bv j)
    (b : Fin 64) (n : Fin 1024) (j : Fin 256) :
    R (ix3 b n j) = Cert.Gcn.layer (A b) (X b) W bv n j := by
  have e1 : ∀ (m : Fin 1024) (k : Fin 256),
      P (lidx_main_v21 (ix3 b m j) k) * Wm (ridx_main_v21 (ix3 b m j) k) = X b m k * W k j := fun m k => by
    have el : lidx_main_v21 (ix3 b m j) k = ix3 b m k :=
      funext fun a => Fin.ext (by match a with | ⟨0, _⟩ => rfl | ⟨1, _⟩ => rfl | ⟨2, _⟩ => rfl)
    have er : ridx_main_v21 (ix3 b m j) k = ix2 k j :=
      funext fun a => Fin.ext (by match a with | ⟨0, _⟩ => rfl | ⟨1, _⟩ => rfl)
    rw [el, er, hP, hW]
  have e2 : ∀ m : Fin 1024, Adj (lidx_main_v22 (ix3 b n j) m) * D1 (ridx_main_v22 (ix3 b n j) m)
      = A b n m * Cert.Gcn.mm (X b) W m j := fun m => by
    have el : lidx_main_v22 (ix3 b n j) m = ix3 b n m :=
      funext fun a => Fin.ext (by match a with | ⟨0, _⟩ => rfl | ⟨1, _⟩ => rfl | ⟨2, _⟩ => rfl)
    have er : ridx_main_v22 (ix3 b n j) m = ix3 b m j :=
      funext fun a => Fin.ext (by match a with | ⟨0, _⟩ => rfl | ⟨1, _⟩ => rfl | ⟨2, _⟩ => rfl)
    rw [el, er, hA, h1, Finset.sum_congr rfl fun k _ => e1 m k]
    rfl
  rw [h3, h2, hB, Finset.sum_congr rfl fun m _ => e2 m]
  rfl

/-- The rectifier after a layer, read at `(b, n, j)`: `Q = max(R, Zr)` with `Zr` the zero word everywhere. -/
theorem relu_at (R Zr Q : (⟨S64x1024x256, .f32⟩ : BufTy).Contents (Elt Ideal))
    (hQ : ∀ i, Q i = FloatOps.maximumf (F := Ideal) (φ := .f32) (R i) (Zr i)) (hZ : ∀ i, Zr i = Cert.Gcn.zero)
    (Y : Fin 64 → Fin 1024 → Fin 256 → EReal) (hR : ∀ b n j, R (ix3 b n j) = Y b n j)
    (b : Fin 64) (n : Fin 1024) (j : Fin 256) : Q (ix3 b n j) = Cert.Gcn.relu (Y b) n j := by
  rw [hQ, hR, hZ]
  rfl

/-! ## The layers' weights and biases -/

theorem v20_at (k j : Fin 256) : val_main_v20 (F := Ideal) x6 (ix2 k j) = x6 (ix3 (0 : Fin 4) k j) := by
  have hk := k.isLt
  have hj := j.isLt
  rw [val_main_v20_apply, val_main_v19_apply]
  refine congrArg x6 (funext fun a => Fin.ext ?_)
  match a with
  | ⟨0, _⟩ => rfl
  | ⟨1, _⟩ => show (k.val * 256 + j.val) / 256 % 256 = k.val; omega
  | ⟨2, _⟩ => show (k.val * 256 + j.val) % 256 = j.val; omega

theorem v30_at (k j : Fin 256) : val_main_v30 (F := Ideal) x6 (ix2 k j) = x6 (ix3 (1 : Fin 4) k j) := by
  have hk := k.isLt
  have hj := j.isLt
  rw [val_main_v30_apply, val_main_v29_apply]
  refine congrArg x6 (funext fun a => Fin.ext ?_)
  match a with
  | ⟨0, _⟩ => rfl
  | ⟨1, _⟩ => show (k.val * 256 + j.val) / 256 % 256 = k.val; omega
  | ⟨2, _⟩ => show (k.val * 256 + j.val) % 256 = j.val; omega

theorem v40_at (k j : Fin 256) : val_main_v40 (F := Ideal) x6 (ix2 k j) = x6 (ix3 (2 : Fin 4) k j) := by
  have hk := k.isLt
  have hj := j.isLt
  rw [val_main_v40_apply, val_main_v39_apply]
  refine congrArg x6 (funext fun a => Fin.ext ?_)
  match a with
  | ⟨0, _⟩ => rfl
  | ⟨1, _⟩ => show (k.val * 256 + j.val) / 256 % 256 = k.val; omega
  | ⟨2, _⟩ => show (k.val * 256 + j.val) % 256 = j.val; omega

theorem v50_at (k j : Fin 256) : val_main_v50 (F := Ideal) x6 (ix2 k j) = x6 (ix3 (3 : Fin 4) k j) := by
  have hk := k.isLt
  have hj := j.isLt
  rw [val_main_v50_apply, val_main_v49_apply]
  refine congrArg x6 (funext fun a => Fin.ext ?_)
  match a with
  | ⟨0, _⟩ => rfl
  | ⟨1, _⟩ => show (k.val * 256 + j.val) / 256 % 256 = k.val; omega
  | ⟨2, _⟩ => show (k.val * 256 + j.val) % 256 = j.val; omega

theorem v26_at (b : Fin 64) (n : Fin 1024) (j : Fin 256) : val_main_v26 (F := Ideal) x7 (ix3 b n j) = x7 (ix2 (0 : Fin 4) j) := by
  have hj := j.isLt
  rw [val_main_v26_apply, val_main_v25_apply, val_main_v24_apply, val_main_v23_apply]
  refine congrArg x7 (funext fun a => Fin.ext ?_)
  match a with
  | ⟨0, _⟩ => rfl
  | ⟨1, _⟩ => show j.val % 256 = j.val; omega

theorem v36_at (b : Fin 64) (n : Fin 1024) (j : Fin 256) : val_main_v36 (F := Ideal) x7 (ix3 b n j) = x7 (ix2 (1 : Fin 4) j) := by
  have hj := j.isLt
  rw [val_main_v36_apply, val_main_v35_apply, val_main_v34_apply, val_main_v33_apply]
  refine congrArg x7 (funext fun a => Fin.ext ?_)
  match a with
  | ⟨0, _⟩ => rfl
  | ⟨1, _⟩ => show j.val % 256 = j.val; omega

theorem v46_at (b : Fin 64) (n : Fin 1024) (j : Fin 256) : val_main_v46 (F := Ideal) x7 (ix3 b n j) = x7 (ix2 (2 : Fin 4) j) := by
  have hj := j.isLt
  rw [val_main_v46_apply, val_main_v45_apply, val_main_v44_apply, val_main_v43_apply]
  refine congrArg x7 (funext fun a => Fin.ext ?_)
  match a with
  | ⟨0, _⟩ => rfl
  | ⟨1, _⟩ => show j.val % 256 = j.val; omega

theorem v56_at (b : Fin 64) (n : Fin 1024) (j : Fin 256) : val_main_v56 (F := Ideal) x7 (ix3 b n j) = x7 (ix2 (3 : Fin 4) j) := by
  have hj := j.isLt
  rw [val_main_v56_apply, val_main_v55_apply, val_main_v54_apply, val_main_v53_apply]
  refine congrArg x7 (funext fun a => Fin.ext ?_)
  match a with
  | ⟨0, _⟩ => rfl
  | ⟨1, _⟩ => show j.val % 256 = j.val; omega

/-! ## The four graph layers -/

/-- The first graph layer, rectified, at `(b, n, j)`. -/
theorem v28_at (hdom : ∀ b : Fin 64, 0 ≤ (x0 (ix1 b)).toInt ∧ (x0 (ix1 b)).toInt < 8) (b : Fin 64) (n : Fin 1024) (j : Fin 256) :
    val_main_v28 (F := Ideal) x0 x2 x3 x4 x5 x6 x7 (ix3 b n j) = st1 x0 x2 x3 x4 x5 x6 x7 b n j :=
  relu_at (val_main_v27 (F := Ideal) x0 x2 x3 x4 x5 x6 x7) (val_main_call1_v0 (F := Ideal)) (val_main_v28 (F := Ideal) x0 x2 x3 x4 x5 x6 x7)
    (val_main_v28_apply (F := Ideal) x0 x2 x3 x4 x5 x6 x7)
    (fun i => (val_main_call1_v0_apply (F := Ideal) i).trans (val_main_call1_cst_apply (F := Ideal) _))
    (fun b => Cert.Gcn.layer (adjm x0 x3 b) (st0 x0 x2 x4 x5 b) (wsm x6 0) (bsv x7 0))
    (layer_at (val_main_v13 (F := Ideal) x0 x3) (val_main_v18 (F := Ideal) x0 x2 x4 x5)
      (val_main_v21 (F := Ideal) x0 x2 x4 x5 x6) (val_main_v22 (F := Ideal) x0 x2 x3 x4 x5 x6) (val_main_v26 (F := Ideal) x7)
      (val_main_v27 (F := Ideal) x0 x2 x3 x4 x5 x6 x7) (val_main_v20 (F := Ideal) x6)
      (val_main_v21_apply x0 x2 x4 x5 x6) (val_main_v22_apply x0 x2 x3 x4 x5 x6) (val_main_v27_apply (F := Ideal) x0 x2 x3 x4 x5 x6 x7)
      (adjm x0 x3) (st0 x0 x2 x4 x5) (wsm x6 0) (bsv x7 0)
      (v13_at x0 x3 hdom) (v18_at x0 x2 x4 x5 hdom) (v20_at x6) (v26_at x7))
    b n j

/-- The second graph layer, rectified, at `(b, n, j)`. -/
theorem v38_at (hdom : ∀ b : Fin 64, 0 ≤ (x0 (ix1 b)).toInt ∧ (x0 (ix1 b)).toInt < 8) (b : Fin 64) (n : Fin 1024) (j : Fin 256) :
    val_main_v38 (F := Ideal) x0 x2 x3 x4 x5 x6 x7 (ix3 b n j) = st2 x0 x2 x3 x4 x5 x6 x7 b n j :=
  relu_at (val_main_v37 (F := Ideal) x0 x2 x3 x4 x5 x6 x7) (val_main_call2_v0 (F := Ideal)) (val_main_v38 (F := Ideal) x0 x2 x3 x4 x5 x6 x7)
    (val_main_v38_apply (F := Ideal) x0 x2 x3 x4 x5 x6 x7)
    (fun i => (val_main_call2_v0_apply (F := Ideal) i).trans (val_main_call2_cst_apply (F := Ideal) _))
    (fun b => Cert.Gcn.layer (adjm x0 x3 b) (st1 x0 x2 x3 x4 x5 x6 x7 b) (wsm x6 1) (bsv x7 1))
    (layer_at (val_main_v13 (F := Ideal) x0 x3) (val_main_v28 (F := Ideal) x0 x2 x3 x4 x5 x6 x7)
      (val_main_v31 (F := Ideal) x0 x2 x3 x4 x5 x6 x7) (val_main_v32 (F := Ideal) x0 x2 x3 x4 x5 x6 x7) (val_main_v36 (F := Ideal) x7)
      (val_main_v37 (F := Ideal) x0 x2 x3 x4 x5 x6 x7) (val_main_v30 (F := Ideal) x6)
      (val_main_v31_apply x0 x2 x3 x4 x5 x6 x7) (val_main_v32_apply x0 x2 x3 x4 x5 x6 x7) (val_main_v37_apply (F := Ideal) x0 x2 x3 x4 x5 x6 x7)
      (adjm x0 x3) (st1 x0 x2 x3 x4 x5 x6 x7) (wsm x6 1) (bsv x7 1)
      (v13_at x0 x3 hdom) (v28_at x0 x2 x3 x4 x5 x6 x7 hdom) (v30_at x6) (v36_at x7))
    b n j

/-- The third graph layer, rectified, at `(b, n, j)`. -/
theorem v48_at (hdom : ∀ b : Fin 64, 0 ≤ (x0 (ix1 b)).toInt ∧ (x0 (ix1 b)).toInt < 8) (b : Fin 64) (n : Fin 1024) (j : Fin 256) :
    val_main_v48 (F := Ideal) x0 x2 x3 x4 x5 x6 x7 (ix3 b n j) = st3 x0 x2 x3 x4 x5 x6 x7 b n j :=
  relu_at (val_main_v47 (F := Ideal) x0 x2 x3 x4 x5 x6 x7) (val_main_call3_v0 (F := Ideal)) (val_main_v48 (F := Ideal) x0 x2 x3 x4 x5 x6 x7)
    (val_main_v48_apply (F := Ideal) x0 x2 x3 x4 x5 x6 x7)
    (fun i => (val_main_call3_v0_apply (F := Ideal) i).trans (val_main_call3_cst_apply (F := Ideal) _))
    (fun b => Cert.Gcn.layer (adjm x0 x3 b) (st2 x0 x2 x3 x4 x5 x6 x7 b) (wsm x6 2) (bsv x7 2))
    (layer_at (val_main_v13 (F := Ideal) x0 x3) (val_main_v38 (F := Ideal) x0 x2 x3 x4 x5 x6 x7)
      (val_main_v41 (F := Ideal) x0 x2 x3 x4 x5 x6 x7) (val_main_v42 (F := Ideal) x0 x2 x3 x4 x5 x6 x7) (val_main_v46 (F := Ideal) x7)
      (val_main_v47 (F := Ideal) x0 x2 x3 x4 x5 x6 x7) (val_main_v40 (F := Ideal) x6)
      (val_main_v41_apply x0 x2 x3 x4 x5 x6 x7) (val_main_v42_apply x0 x2 x3 x4 x5 x6 x7) (val_main_v47_apply (F := Ideal) x0 x2 x3 x4 x5 x6 x7)
      (adjm x0 x3) (st2 x0 x2 x3 x4 x5 x6 x7) (wsm x6 2) (bsv x7 2)
      (v13_at x0 x3 hdom) (v38_at x0 x2 x3 x4 x5 x6 x7 hdom) (v40_at x6) (v46_at x7))
    b n j

/-- The fourth graph layer (the logits) at `(b, n, j)`. -/
theorem v57_at (hdom : ∀ b : Fin 64, 0 ≤ (x0 (ix1 b)).toInt ∧ (x0 (ix1 b)).toInt < 8) (b : Fin 64) (n : Fin 1024) (j : Fin 256) :
    val_main_v57 (F := Ideal) x0 x2 x3 x4 x5 x6 x7 (ix3 b n j) = lgt x0 x2 x3 x4 x5 x6 x7 b n j :=
  layer_at (val_main_v13 (F := Ideal) x0 x3) (val_main_v48 (F := Ideal) x0 x2 x3 x4 x5 x6 x7)
    (val_main_v51 (F := Ideal) x0 x2 x3 x4 x5 x6 x7) (val_main_v52 (F := Ideal) x0 x2 x3 x4 x5 x6 x7) (val_main_v56 (F := Ideal) x7)
    (val_main_v57 (F := Ideal) x0 x2 x3 x4 x5 x6 x7) (val_main_v50 (F := Ideal) x6)
    (val_main_v51_apply x0 x2 x3 x4 x5 x6 x7) (val_main_v52_apply x0 x2 x3 x4 x5 x6 x7) (val_main_v57_apply (F := Ideal) x0 x2 x3 x4 x5 x6 x7)
    (adjm x0 x3) (st3 x0 x2 x3 x4 x5 x6 x7) (wsm x6 3) (bsv x7 3)
    (v13_at x0 x3 hdom) (v48_at x0 x2 x3 x4 x5 x6 x7 hdom) (v50_at x6) (v56_at x7) b n j

/-! ## The softmax -/

/-- The row maximum at `(b, n)`. -/
theorem v60_at (hdom : ∀ b : Fin 64, 0 ≤ (x0 (ix1 b)).toInt ∧ (x0 (ix1 b)).toInt < 8) (b : Fin 64) (n : Fin 1024) :
    val_main_v60 (F := Ideal) x0 x2 x3 x4 x5 x6 x7 (ix2 b n) = Cert.Gcn.rowMax (lgt x0 x2 x3 x4 x5 x6 x7 b) n := by
  have h58 : val_main_v58 (F := Ideal) x0 x2 x3 x4 x5 x6 x7 (ix2 b n)
      = (Finset.univ : Finset (Fin 256)).fold max Cert.Gcn.negInf
          (fun q => val_main_v57 (F := Ideal) x0 x2 x3 x4 x5 x6 x7 (ix3 b n q)) := by
    unfold val_main_v58
    exact Cert.RowReduce.hostReduce_maximumf_last3 (val_main_v57 (F := Ideal) x0 x2 x3 x4 x5 x6 x7) (val_main_cst (F := Ideal))
      reducesTo_S64x1024x256_S64x1024_d2 (by decide) h_S_ b n
  have hf : (fun q : Fin 256 => val_main_v57 (F := Ideal) x0 x2 x3 x4 x5 x6 x7 (ix3 b n q)) = fun q => lgt x0 x2 x3 x4 x5 x6 x7 b n q :=
    funext fun q => v57_at x0 x2 x3 x4 x5 x6 x7 hdom b n q
  rw [val_main_v60_apply, val_main_v59_apply, val_main_cst_3_apply, h58, hf]
  rfl

/-- The softmax weights at `(b, n, j)`. -/
theorem v64_at (hdom : ∀ b : Fin 64, 0 ≤ (x0 (ix1 b)).toInt ∧ (x0 (ix1 b)).toInt < 8) (b : Fin 64) (n : Fin 1024) (j : Fin 256) :
    val_main_v64 (F := Ideal) x0 x2 x3 x4 x5 x6 x7 (ix3 b n j) = Cert.Gcn.expRow (lgt x0 x2 x3 x4 x5 x6 x7 b) n j := by
  have e : idx_main_v61 (idx_main_v62 (ix3 b n j)) = ix2 b n :=
    funext fun a => Fin.ext (by match a with | ⟨0, _⟩ => rfl | ⟨1, _⟩ => rfl)
  rw [val_main_v64_apply, val_main_v63_apply, val_main_v62_apply, val_main_v61_apply, e, v60_at x0 x2 x3 x4 x5 x6 x7 hdom,
    v57_at x0 x2 x3 x4 x5 x6 x7 hdom]
  rfl

/-- A row's sum of weights at `(b, n)`. -/
theorem v65_at (hdom : ∀ b : Fin 64, 0 ≤ (x0 (ix1 b)).toInt ∧ (x0 (ix1 b)).toInt < 8) (b : Fin 64) (n : Fin 1024) :
    val_main_v65 (F := Ideal) x0 x2 x3 x4 x5 x6 x7 (ix2 b n) = ∑ q : Fin 256, Cert.Gcn.expRow (lgt x0 x2 x3 x4 x5 x6 x7 b) n q := by
  have e : ∀ k : Fin 256, val_main_v64 (F := Ideal) x0 x2 x3 x4 x5 x6 x7 (idx_main_v65 (ix2 b n) k)
      = Cert.Gcn.expRow (lgt x0 x2 x3 x4 x5 x6 x7 b) n k := fun k => by
    have ei : idx_main_v65 (ix2 b n) k = ix3 b n k :=
      funext fun a => Fin.ext (by match a with | ⟨0, _⟩ => rfl | ⟨1, _⟩ => rfl | ⟨2, _⟩ => rfl)
    rw [ei, v64_at x0 x2 x3 x4 x5 x6 x7 hdom]
  rw [val_main_v65_apply, val_main_cst_4_apply, Finset.sum_congr rfl fun k _ => e k]
  exact zeroWord_add _

/-- The softmax at `(b, n, j)`. -/
theorem v68_at (hdom : ∀ b : Fin 64, 0 ≤ (x0 (ix1 b)).toInt ∧ (x0 (ix1 b)).toInt < 8) (b : Fin 64) (n : Fin 1024) (j : Fin 256) :
    val_main_v68 (F := Ideal) x0 x2 x3 x4 x5 x6 x7 (ix3 b n j) = Cert.Gcn.softmax (lgt x0 x2 x3 x4 x5 x6 x7 b) n j := by
  have e : idx_main_v66 (idx_main_v67 (ix3 b n j)) = ix2 b n :=
    funext fun a => Fin.ext (by match a with | ⟨0, _⟩ => rfl | ⟨1, _⟩ => rfl)
  rw [val_main_v68_apply, val_main_v67_apply, val_main_v66_apply, e, v65_at x0 x2 x3 x4 x5 x6 x7 hdom, v64_at x0 x2 x3 x4 x5 x6 x7 hdom]
  rfl

/-! ## The masked mean -/

/-- The masked sum of column `j` for sample `b`. -/
theorem v74_at (hdom : ∀ b : Fin 64, 0 ≤ (x0 (ix1 b)).toInt ∧ (x0 (ix1 b)).toInt < 8) (b : Fin 64) (j : Fin 256) :
    val_main_v74 (F := Ideal) x0 x1 x2 x3 x4 x5 x6 x7 (ix2 b j)
      = ∑ n : Fin 1024, mskv x1 b n * (Cert.Gcn.softmax (lgt x0 x2 x3 x4 x5 x6 x7 b) n j + st0 x0 x2 x4 x5 b n j) := by
  have e : ∀ k : Fin 1024, val_main_v73 (F := Ideal) x0 x1 x2 x3 x4 x5 x6 x7 (idx_main_v74 (ix2 b j) k)
      = mskv x1 b k * (Cert.Gcn.softmax (lgt x0 x2 x3 x4 x5 x6 x7 b) k j + st0 x0 x2 x4 x5 b k j) := fun k => by
    have ei : idx_main_v74 (ix2 b j) k = ix3 b k j :=
      funext fun a => Fin.ext (by match a with | ⟨0, _⟩ => rfl | ⟨1, _⟩ => rfl | ⟨2, _⟩ => rfl)
    have em : idx_main_v70 (idx_main_v72 (ix3 b k j)) = ix2 b k :=
      funext fun a => Fin.ext (by match a with | ⟨0, _⟩ => rfl | ⟨1, _⟩ => rfl)
    rw [ei, val_main_v73_apply, val_main_v69_apply, v68_at x0 x2 x3 x4 x5 x6 x7 hdom, v18_at x0 x2 x4 x5 hdom, val_main_v72_apply,
      val_main_v71_apply, val_main_v70_apply, em]
    exact mul_comm _ _
  rw [val_main_v74_apply, val_main_cst_5_apply, Finset.sum_congr rfl fun k _ => e k]
  exact zeroWord_add _

/-- The number of masked nodes of sample `b`, at least one, spread over the columns. -/
theorem v78_at (b : Fin 64) (j : Fin 256) :
    val_main_v78 (F := Ideal) x1 (ix2 b j) = max (∑ n : Fin 1024, mskv x1 b n) Cert.Gcn.one := by
  have e8 : idx_main_v78 (ix2 b j) = ix2 b (0 : Fin 1) :=
    funext fun a => Fin.ext (by match a with | ⟨0, _⟩ => rfl | ⟨1, _⟩ => rfl)
  have e : ∀ k : Fin 1024, val_main_v71 (F := Ideal) x1 (idx_main_v75 (ix2 b (0 : Fin 1)) k) = mskv x1 b k := fun k => by
    have em : idx_main_v70 (idx_main_v75 (ix2 b (0 : Fin 1)) k) = ix2 b k :=
      funext fun a => Fin.ext (by match a with | ⟨0, _⟩ => rfl | ⟨1, _⟩ => rfl)
    rw [val_main_v71_apply, val_main_v70_apply, em]
  rw [val_main_v78_apply, e8, val_main_v77_apply, val_main_v76_apply, val_main_cst_7_apply, val_main_v75_apply,
    val_main_cst_6_apply, Finset.sum_congr rfl fun k _ => e k]
  exact congrArg (fun s => max s Cert.Gcn.one) (zeroWord_add _)

end

/-! ## The result -/

/-- The reference program's result is the specification function, for graph ids inside [0, 8). -/
theorem result_eq (x0 : (⟨S64, .i32⟩ : BufTy).Contents (Elt Ideal)) (x1 : (⟨S64x1024, .i1⟩ : BufTy).Contents (Elt Ideal))
  (x2 : (⟨S8x1024x128, .f32⟩ : BufTy).Contents (Elt Ideal)) (x3 : (⟨S8x1024x1024, .f32⟩ : BufTy).Contents (Elt Ideal))
  (x4 : (⟨S128x256, .f32⟩ : BufTy).Contents (Elt Ideal)) (x5 : (⟨S256, .f32⟩ : BufTy).Contents (Elt Ideal))
  (x6 : (⟨S4x256x256, .f32⟩ : BufTy).Contents (Elt Ideal)) (x7 : (⟨S4x256, .f32⟩ : BufTy).Contents (Elt Ideal))
    (hdom : ∀ b : Fin 64, 0 ≤ (x0 (ValueIdx.ix1 b)).toInt ∧ (x0 (ValueIdx.ix1 b)).toInt < 8) :
    Cert.ReferenceIdeal.Read.val_main_v79 (F := Ideal) x0 x1 x2 x3 x4 x5 x6 x7 = Cert.Gcn.outArr x0 x1 x2 x3 x4 x5 x6 x7 := by
  funext i
  obtain ⟨b, j, rfl⟩ : ∃ (b : Fin 64) (j : Fin 256), i = ix2 b j := ⟨i 0, i 1, eq_ix2 i⟩
  rw [val_main_v79_apply, v74_at x0 x1 x2 x3 x4 x5 x6 x7 hdom, v78_at x1, Cert.Gcn.outArr_apply]
  rfl

end Cert.RefSide

end
-- ==== Proof.PreDomain.lean ====
/-
  The graph ids' domain, read out of the precondition.

  The precondition is a chain of conjunctions; its last conjunct says that every graph id g satisfies
  (g ≥ 0) and (g < 8), compared signed, all 64 of them.  A conjunction that is 1 has both sides 1; an "all" over the 64
  entries that is 1 has every entry 1; a signed comparison that is 1 is the order of the signed values.
-/
import proofs.«180856_j20255065768053_2_alg».proof.Pre_finite_inputs
import Idealize.ShloMosaic.Lib.ReduceAll
import Idealize.ShloMosaic.Lib.ValueIdx
import Idealize.ShloMosaic.PureOps.Ideal

noncomputable section

namespace Cert.PreDomain

open Idealize.ShloMosaic
open Cert.Pre_finite_inputs

/-- The scalar shape has one index. -/
instance : Subsingleton S_.Idx := ⟨fun a b => funext fun d => d.elim0⟩

/-- Under the precondition every graph id lies in [0, 8), read signed. -/
theorem graph_in_range [Cert.Pre_finite_inputs.Facts] (a0 : IVec Cert.Pre_finite_inputs.S64 32) (a1 : IVec Cert.Pre_finite_inputs.S64x1024 1)
    (a2 : FVec Ideal Cert.Pre_finite_inputs.S8x1024x128 .f32) (a3 : FVec Ideal Cert.Pre_finite_inputs.S8x1024x1024 .f32)
    (a4 : FVec Ideal Cert.Pre_finite_inputs.S128x256 .f32) (a5 : FVec Ideal Cert.Pre_finite_inputs.S256 .f32)
    (a6 : FVec Ideal Cert.Pre_finite_inputs.S4x256x256 .f32) (a7 : FVec Ideal Cert.Pre_finite_inputs.S4x256 .f32)
    (h : Cert.Pre_finite_inputs.fn (F := Ideal) a0 a1 a2 a3 a4 a5 a6 a7 = fun _ => 1#1) :
    ∀ b : Fin 64, 0 ≤ (a0 (ValueIdx.ix1 b)).toInt ∧ (a0 (ValueIdx.ix1 b)).toInt < 8 := by
  intro b
  have e := congrFun h ValueIdx.ix0
  dsimp only [fn, fn_part1, fn_part2] at e
  -- the last conjunct of the chain: the "all" over the 64 entries
  have e2 := (IntOp.andi_eq_one.1 e).2
  -- its entry b
  have e3 := Host.reduce_andi_all _ _ _ _ _ e2 (ValueIdx.ix1 b)
  -- the two comparisons of entry b
  obtain ⟨h0, h8⟩ := IntOp.andi_eq_one.1 e3
  have h0' := IntOp.cmpi_sge.1 h0
  have h8' := IntOp.cmpi_slt.1 h8
  refine ⟨?_, ?_⟩
  · exact (show (0#32 : BitVec 32).toInt = 0 from by decide) ▸ h0'
  · exact (show (8#32 : BitVec 32).toInt = 8 from by decide) ▸ h8'

end Cert.PreDomain

end
-- ==== Proof.lean ====
/- The proof of `Cert.Claim` (proofs.«180856_j20255065768053_2_alg».proof.Defs): a four-layer graph-convolution network with a
   softmax head and a masked mean, computed by one kernel launch per sample, against its array-at-once reference.

   Both programs compute, for sample b with graph g = graph[b], the row
     pooled(mask[b], softmax(L₃) + X₀),   X₀ = max(xs[g]·W_in + b_in, 0),   X_{l+1} = max(A[g]·(X_l·W_l) + b_l, 0),
     L₃ = A[g]·(X₃·W₃) + b₃,   pooled(m, Y)[j] = (Σ_n m[n]·Y[n, j]) / max(Σ_n m[n], 1),
   over the extended reals (Proof/GcnSpec.lean).  The kernel rounds its matrix-product operands to a narrower float
   format, which is the identity on the extended reals; it forms the masked sum as a 1 × 1024 by 1024 × 256 product
   (mask on the left), the reference as a sum of value · mask: the two agree by commutativity of the product, the only
   law used, so finiteness of the float inputs is never opened.  The kernel picks graph g by an index map reading the
   graph ids clipped to [0, 7]; the reference gathers with the id wrapped when negative and kept inside [0, 7].  The
   two name the same graph when 0 ≤ graph[b] < 8, the precondition's last conjunct; without it a negative id wraps
   in the reference and clips to 0 in the kernel.

   Kernel side: Proof/KernelPiece.lean (the stored row as a function of the blocks read), Proof/KernelLayers.lean and
   Proof/KernelBodyValue.lean (that function is the network of the blocks), Proof/KernelBlocks.lean (where each block
   sits in its array), Proof/KernelArrays.lean (the arrays the region finds are the arguments), Proof/KernelIdealTable.lean
   and Proof/KernelTable.lean (the clipped ids keep every block inside its array, at every memory: the frames need no
   precondition), Proof/KernelValue.lean and Proof/KernelRun.lean (the result array).  Reference side: Proof/RefValue.lean
   over Proof/LibGatherSlab.lean.  The domain of the graph ids out of the precondition: Proof/PreDomain.lean. -/
import proofs.«180856_j20255065768053_2_alg».proof.Defs
import proofs.«180856_j20255065768053_2_alg».proof.Proof.Gen.Kernel
import proofs.«180856_j20255065768053_2_alg».proof.Proof.Gen.Kernel.Skeleton
import proofs.«180856_j20255065768053_2_alg».proof.Proof.Gen.Kernel.Launch
import proofs.«180856_j20255065768053_2_alg».proof.Proof.Gen.Kernel.Points
import proofs.«180856_j20255065768053_2_alg».proof.Proof.Gen.Kernel.Frame
import proofs.«180856_j20255065768053_2_alg».proof.Proof.Gen.KernelIdeal
import proofs.«180856_j20255065768053_2_alg».proof.Proof.Gen.KernelIdeal.Skeleton
import proofs.«180856_j20255065768053_2_alg».proof.Proof.Gen.KernelIdeal.Launch
import proofs.«180856_j20255065768053_2_alg».proof.Proof.Gen.KernelIdeal.Points
import proofs.«180856_j20255065768053_2_alg».proof.Proof.Gen.KernelIdeal.Frame
import proofs.«180856_j20255065768053_2_alg».proof.Proof.Gen.ReferenceIdeal
import proofs.«180856_j20255065768053_2_alg».proof.Proof.Gen.ReferenceIdeal.Run
import proofs.«180856_j20255065768053_2_alg».proof.Proof.Gen.ReferenceIdeal.Read
import proofs.«180856_j20255065768053_2_alg».proof.Proof.Gen.Pre_finite_inputs
import proofs.«180856_j20255065768053_2_alg».proof.Proof.KernelTable
import proofs.«180856_j20255065768053_2_alg».proof.Proof.KernelIdealTable
import proofs.«180856_j20255065768053_2_alg».proof.Proof.KernelRun
import proofs.«180856_j20255065768053_2_alg».proof.Proof.RefValue
import proofs.«180856_j20255065768053_2_alg».proof.Proof.PreDomain
import Idealize.ShloMosaic.Adequacy
import Idealize.ShloMosaic.Init

noncomputable section

namespace Cert.Proof

open Idealize.ShloMosaic Idealize.SL.Sem

/-- The word-level kernel program runs and keeps its arguments: the clipped table keeps every block inside its array. -/
theorem frame_k : Cert.frame_Kernel := fun m ρ _ => Cert.Kernel.Gen.frame m ρ (Cert.Kernel.Tbl.ok m)

/-- So does the idealized one. -/
theorem frame_ki : Cert.frame_KernelIdeal := fun m ρ _ => Cert.KernelIdeal.Gen.frame m ρ (Cert.KernelIdeal.Tbl.ok m)

/-- The reference is a straight line of array operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals, from memories that agree on the arguments, the kernel program's result array and the
    reference's are the specification's batch of the arguments. -/
theorem algebraic : Cert.algebraic_KernelIdeal_ReferenceIdeal := by
  intro m ρ m' ρ' hpre hagree
  refine ⟨fun c => Cert.KernelIdeal.Value.resultOf m c, Cert.KernelIdeal.Value.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v79_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.RefSide.result_eq _ _ _ _ _ _ _ _ (Cert.PreDomain.graph_in_range _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
